-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x2 : Shape := ⟨2, ![150000, 2]⟩
abbrev S2x1250000 : Shape := ⟨2, ![2, 1250000]⟩
abbrev S150000 : Shape := ⟨1, ![150000]⟩
abbrev S2x64 : Shape := ⟨2, ![2, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S150000x2 : S_.BroadcastsInDim S150000x2 (![] : Fin 0 → Fin S150000x2.rank)
  reducesTo_S150000x2_S_d0_1 : S150000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S150000x2 .f32) (main_arg1 : IVec S2x1250000 32) (main_arg2 : IVec S150000 32) (main_arg3 : FVec F S2x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S150000x2 .f32 := Host.absf main_arg0
  let main_cst : FVec F S_ .f32 := constant S_ .f32 0x7F800000#32
  let main_v1 : FVec F S150000x2 .f32 := broadcastInDim S150000x2 ![] bcast_S_S150000x2 main_cst
  let main_v2 : IVec S150000x2 1 := cmpf .olt main_v0 main_v1
  let main_c : IVec S_ 1 := constantI S_ 1 1#1
  let main_v3 : IVec S_ 1 := (fun x v => Host.reduce IntOp.andi x v reducesTo_S150000x2_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S150000x2 : Shape := ⟨2, ![150000, 2]⟩
abbrev S2x1250000 : Shape := ⟨2, ![2, 1250000]⟩
abbrev S150000 : Shape := ⟨1, ![150000]⟩
abbrev S2x64 : Shape := ⟨2, ![2, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S150000x1 : Shape := ⟨2, ![150000, 1]⟩
abbrev S150000x64 : Shape := ⟨2, ![150000, 64]⟩
abbrev S10000x2 : Shape := ⟨2, ![10000, 2]⟩
abbrev S10000x64 : Shape := ⟨2, ![10000, 64]⟩
abbrev S1250000x64 : Shape := ⟨2, ![1250000, 64]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩
abbrev S1x32 : Shape := ⟨2, ![1, 32]⟩
abbrev S1x1 : Shape := ⟨2, ![1, 1]⟩
abbrev S4096x32 : Shape := ⟨2, ![4096, 32]⟩

abbrev nBuf : Space → Nat
  | .hbm => 125
  | .vmem => 48
  | .smem => 0
  | _ => 0

abbrev bufTy : (tb : Table) → Fin (tcTables nBuf tb) → BufTy
  | .hbm, ⟨0, _⟩ => ⟨S150000x2, .f32⟩
  | .hbm, ⟨1, _⟩ => ⟨S2x1250000, .i32⟩
  | .hbm, ⟨2, _⟩ => ⟨S150000, .i32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1250000, .i32⟩
  | .hbm, ⟨14, _⟩ => ⟨S1250000, .i32⟩
  | .hbm, ⟨15, _⟩ => ⟨S1x1250000, .i32⟩
  | .hbm, ⟨16, _⟩ => ⟨S1250000, .i32⟩
  | .hbm, ⟨17, _⟩ => ⟨S_, .f32⟩
  | .hbm, ⟨18, _⟩ => ⟨S1250000, .f32⟩
  | .hbm, ⟨19, _⟩ => ⟨S_, .f32⟩
  | .hbm, ⟨20, _⟩ => ⟨S150000, .f32⟩
  | .hbm, ⟨21, _⟩ => ⟨S1250000x1, .i32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .f32⟩
  | .hbm, ⟨26, _⟩ => ⟨S150000, .f32⟩
  | .hbm, ⟨27, _⟩ => ⟨S150000, .f32⟩
  | .hbm, ⟨28, _⟩ => ⟨S150000x1, .f32⟩
  | .hbm, ⟨29, _⟩ => ⟨S150000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S150000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S1250000x1, .f32⟩
  | .hbm, ⟨60, _⟩ => ⟨S1250000x64, .f32⟩
  | .hbm, ⟨61, _⟩ => ⟨S1250000x64, .f32⟩
  | .hbm, ⟨62, _⟩ => ⟨S_, .f32⟩
  | .hbm, ⟨63, _⟩ => ⟨S150000x64, .f32⟩
  | .hbm, ⟨64, _⟩ => ⟨S1250000x1, .i32⟩
  | .hbm, ⟨65, _⟩ => ⟨S150000x64, .f32⟩
  | .hbm, ⟨66, _⟩ => ⟨S1x64, .f32⟩
  | .hbm, ⟨67, _⟩ => ⟨S150000x64, .f32⟩
  | .hbm, ⟨68, _⟩ => ⟨S150000x64, .f32⟩
  | .hbm, ⟨69, _⟩ => ⟨S_, .i32⟩
  | .hbm, ⟨70, _⟩ => ⟨S1250000, .i32⟩
  | .hbm, ⟨71, _⟩ => ⟨S1250000, .i1⟩
  | .hbm, ⟨72, _⟩ => ⟨S_, .i32⟩
  | .hbm, ⟨73, _⟩ => ⟨S1250000, .i32⟩
  | .hbm, ⟨74, _⟩ => ⟨S1250000, .i32⟩
  | .hbm, ⟨75, _⟩ => ⟨S1250000, .i32⟩
  | .hbm, ⟨76, _⟩ => ⟨S1250000x1, .i32⟩
  | .hbm, ⟨77, _⟩ => ⟨S1250000x64, .f32⟩
  | .hbm, ⟨78, _⟩ => ⟨S1250000x1, .f32⟩
  | .hbm, ⟨79, _⟩ => ⟨S1250000x64, .f32⟩
  | .hbm, ⟨80, _⟩ => ⟨S1250000x64, .f32⟩
  | .hbm, ⟨81, _⟩ => ⟨S_, .f32⟩
  | .hbm, ⟨82, _⟩ => ⟨S150000x64, .f32⟩
  | .hbm, ⟨83, _⟩ => ⟨S1250000x1, .i32⟩
  | .hbm, ⟨84, _⟩ => ⟨S150000x64, .f32⟩
  | .hbm, ⟨85, _⟩ => ⟨S1x64, .f32⟩
  | .hbm, ⟨86, _⟩ => ⟨S150000x64, .f32⟩
  | .hbm, ⟨87, _⟩ => ⟨S150000x64, .f32⟩
  | .hbm, ⟨88, _⟩ => ⟨S_, .i32⟩
  | .hbm, ⟨89, _⟩ => ⟨S1250000, .i32⟩
  | .hbm, ⟨90, _⟩ => ⟨S1250000, .i1⟩
  | .hbm, ⟨91, _⟩ => ⟨S_, .i32⟩
  | .hbm, ⟨92, _⟩ => ⟨S1250000, .i32⟩
  | .hbm, ⟨93, _⟩ => ⟨S1250000, .i32⟩
  | .hbm, ⟨94, _⟩ => ⟨S1250000, .i32⟩
  | .hbm, ⟨95, _⟩ => ⟨S1250000x1, .i32⟩
  | .hbm, ⟨96, _⟩ => ⟨S1250000x64, .f32⟩
  | .hbm, ⟨97, _⟩ => ⟨S1250000x1, .f32⟩
  | .hbm, ⟨98, _⟩ => ⟨S1250000x64, .f32⟩
  | .hbm, ⟨99, _⟩ => ⟨S1250000x64, .f32⟩
  | .hbm, ⟨100, _⟩ => ⟨S_, .f32⟩
  | .hbm, ⟨101, _⟩ => ⟨S150000x64, .f32⟩
  | .hbm, ⟨102, _⟩ => ⟨S1250000x1, .i32⟩
  | .hbm, ⟨103, _⟩ => ⟨S150000x64, .f32⟩
  | .hbm, ⟨104, _⟩ => ⟨S1x64, .f32⟩
  | .hbm, ⟨105, _⟩ => ⟨S150000x64, .f32⟩
  | .hbm, ⟨106, _⟩ => ⟨S_, .f32⟩
  | .hbm, ⟨107, _⟩ => ⟨S150000, .f32⟩
  | .hbm, ⟨108, _⟩ => ⟨S_, .f32⟩
  | .hbm, ⟨109, _⟩ => ⟨S4096x64, .f32⟩
  | .hbm, ⟨110, _⟩ => ⟨S150000x1, .i32⟩
  | .hbm, ⟨111, _⟩ => ⟨S4096x64, .f32⟩
  | .hbm, ⟨112, _⟩ => ⟨S_, .f32⟩
  | .hbm, ⟨113, _⟩ => ⟨S4096, .f32⟩
  | .hbm, ⟨114, _⟩ => ⟨S150000x1, .i32⟩
  | .hbm, ⟨115, _⟩ => ⟨S4096, .f32⟩
  | .hbm, ⟨116, _⟩ => ⟨S_, .f32⟩
  | .hbm, ⟨117, _⟩ => ⟨S4096, .f32⟩
  | .hbm, ⟨118, _⟩ => ⟨S4096, .f32⟩
  | .hbm, ⟨119, _⟩ => ⟨S4096x1, .f32⟩
  | .hbm, ⟨120, _⟩ => ⟨S4096x64, .f32⟩
  | .hbm, ⟨121, _⟩ => ⟨S4096x64, .f32⟩
  | .hbm, ⟨122, _⟩ => ⟨S1x32, .f32⟩
  | .hbm, ⟨123, _⟩ => ⟨S1x1, .f32⟩
  | .hbm, ⟨124, _⟩ => ⟨S4096x1, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S4096x64, .f32⟩
  | .local _ .vmem, ⟨43, _⟩ => ⟨S64x32, .f32⟩
  | .local _ .vmem, ⟨44, _⟩ => ⟨S1x32, .f32⟩
  | .local _ .vmem, ⟨45, _⟩ => ⟨S32x1, .f32⟩
  | .local _ .vmem, ⟨46, _⟩ => ⟨S1x1, .f32⟩
  | .local _ .vmem, ⟨47, _⟩ => ⟨S4096x1, .f32⟩
  | _, _ => ⟨S150000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S4096x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S150000 : S_.BroadcastsInDim S150000 (![] : Fin 0 → Fin S150000.rank)
  bcast_S1250000_S1250000x1_0 : S1250000.BroadcastsInDim S1250000x1 (![0] : Fin 1 → Fin S1250000x1.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S1250000x1_S1250000x64_0_1 : S1250000x1.BroadcastsInDim S1250000x64 (![0, 1] : Fin 2 → Fin S1250000x64.rank)
  bcast_S_S150000x64 : S_.BroadcastsInDim S150000x64 (![] : Fin 0 → Fin S150000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S4096x64 : S_.BroadcastsInDim S4096x64 (![] : Fin 0 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S32_S1x32 : S32.ShapeCasts S1x32
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S150000_S1250000x1_S1250000_n_0_0_1_wf : ScatterDims.WF S150000 S1250000x1 S1250000 [] [0] [0] 1
  gather_S150000_S1250000x1_S1250000_n_0_n_n_0_1_1_wf : GatherDims.WF S150000 S1250000x1 S1250000 [] [0] [] [0] [] 1 ![1]
  dot_S10000x2_S2x64_S10000x64_1_0_0_1_n_n_wf : DotDims.WF S10000x2 S2x64 S10000x64 [1] [0] [0] [1] [] []
  gather_S150000x64_S1250000x1_S1250000x64_1_0_n_n_0_1_164_wf : GatherDims.WF S150000x64 S1250000x1 S1250000x64 [1] [0] [] [0] [] 1 ![1, 64]
  scatter_S150000x64_S1250000x1_S1250000x64_1_0_0_1_wf : ScatterDims.WF S150000x64 S1250000x1 S1250000x64 [1] [0] [0] 1
  dot_S10000x64_S64x64_S10000x64_1_0_0_1_n_n_wf : DotDims.WF S10000x64 S64x64 S10000x64 [1] [0] [0] [1] [] []
  scatter_S4096x64_S150000x1_S150000x64_1_0_0_1_wf : ScatterDims.WF S4096x64 S150000x1 S150000x64 [1] [0] [0] 1
  scatter_S4096_S150000x1_S150000_n_0_0_1_wf : ScatterDims.WF S4096 S150000x1 S150000 [] [0] [0] 1
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S150000x2.size a
  hwx0_0 : ∀ i : grid0.Coords, EltTy.bits .f32 = 32 ∨ (Rect.block (s := S150000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S150000x64.size a
  hwx1_2 : ∀ i : grid1.Coords, EltTy.bits .f32 = 32 ∨ (Rect.block (s := S150000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S150000x64.size a
  hwx1_4 : ∀ i : grid1.Coords, EltTy.bits .f32 = 32 ∨ (Rect.block (s := S150000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S150000x64.size a
  hwx2_2 : ∀ i : grid2.Coords, EltTy.bits .f32 = 32 ∨ (Rect.block (s := S150000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S150000x64.size a
  hwx3_1 : ∀ i : grid3.Coords, EltTy.bits .f32 = 32 ∨ (Rect.block (s := S150000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S150000x64.size a
  hwx3_2 : ∀ i : grid3.Coords, EltTy.bits .f32 = 32 ∨ (Rect.block (s := S150000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S150000x64.size a
  hwx3_4 : ∀ i : grid3.Coords, EltTy.bits .f32 = 32 ∨ (Rect.block (s := S150000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S150000x64.size a
  hwx4_0 : ∀ i : grid4.Coords, EltTy.bits .f32 = 32 ∨ (Rect.block (s := S150000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S150000x64.size a
  hwx4_2 : ∀ i : grid4.Coords, EltTy.bits .f32 = 32 ∨ (Rect.block (s := S150000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S150000x64.size a
  hwx5_0 : ∀ i : grid5.Coords, EltTy.bits .f32 = 32 ∨ (Rect.block (s := S150000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S150000x64.size a
  hwx5_1 : ∀ i : grid5.Coords, EltTy.bits .f32 = 32 ∨ (Rect.block (s := S150000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S150000x64.size a
  hwx5_2 : ∀ i : grid5.Coords, EltTy.bits .f32 = 32 ∨ (Rect.block (s := S150000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S150000x64.size a
  hwx5_4 : ∀ i : grid5.Coords, EltTy.bits .f32 = 32 ∨ (Rect.block (s := S150000x64) S10000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S4096x64.size a
  hwx6_0 : ∀ i : grid6.Coords, EltTy.bits .f32 = 32 ∨ (Rect.block (s := S4096x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S4096x1.size a ≤ S4096x1.size a
  hwx6_5 : ∀ i : grid6.Coords, EltTy.bits .f32 = 32 ∨ (Rect.block (s := S4096x1) S4096x1.size (cc6_transform_5 i) (hinb6_5 i)).WholeWords (EltTy.packing .f32)

variable [Facts₀]

def scatter_S150000_S1250000x1_S1250000_n_0_0_1 : ScatterDims S150000 S1250000x1 S1250000 where
  updateWindowDims := []
  insertedWindowDims := [0]
  scatterDimsToOperandDims := [0]
  indexVectorDim := 1
  wf := scatter_S150000_S1250000x1_S1250000_n_0_0_1_wf
def gather_S150000_S1250000x1_S1250000_n_0_n_n_0_1_1 : GatherDims S150000 S1250000x1 S1250000 where
  offsetDims := []
  collapsedSliceDims := [0]
  operandBatchingDims := []
  startIndicesBatchingDims := []
  startIndexMap := [0]
  indexVectorDim := 1
  sliceSizes := ![1]
  wf := gather_S150000_S1250000x1_S1250000_n_0_n_n_0_1_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S4096x64_S150000x1_S150000x64_1_0_0_1 : ScatterDims S4096x64 S150000x1 S150000x64 where
  updateWindowDims := [1]
  insertedWindowDims := [0]
  scatterDimsToOperandDims := [0]
  indexVectorDim := 1
  wf := scatter_S4096x64_S150000x1_S150000x64_1_0_0_1_wf
def scatter_S4096_S150000x1_S150000_n_0_0_1 : ScatterDims S4096 S150000x1 S150000 where
  updateWindowDims := []
  insertedWindowDims := [0]
  scatterDimsToOperandDims := [0]
  indexVectorDim := 1
  wf := scatter_S4096_S150000x1_S150000_n_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S4096x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S4096x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S150000x2 : Shape := ⟨2, ![150000, 2]⟩
abbrev S2x1250000 : Shape := ⟨2, ![2, 1250000]⟩
abbrev S150000 : Shape := ⟨1, ![150000]⟩
abbrev S2x64 : Shape := ⟨2, ![2, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S150000x64 : Shape := ⟨2, ![150000, 64]⟩
abbrev S1250000x64 : Shape := ⟨2, ![1250000, 64]⟩
abbrev S150000x1 : Shape := ⟨2, ![150000, 1]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S1x1 : Shape := ⟨2, ![1, 1]⟩

abbrev nBuf : Space → Nat
  | .hbm => 203
  | .vmem => 0
  | .smem => 0
  | _ => 0

abbrev hbmTy0_0 (i : Nat) : BufTy := match i % 128 with
  | 0 => ⟨S150000x2, .f32⟩
  | 1 => ⟨S2x1250000, .i32⟩
  | 2 => ⟨S150000, .i32⟩
  | 3 => ⟨S2x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S1x1250000, .i32⟩
  | 14 => ⟨S1250000, .i32⟩
  | 15 => ⟨S1x1250000, .i32⟩
  | 16 => ⟨S1250000, .i32⟩
  | 17 => ⟨S_, .f32⟩
  | 18 => ⟨S1250000, .f32⟩
  | 19 => ⟨S_, .f32⟩
  | 20 => ⟨S150000, .f32⟩
  | 21 => ⟨S1250000x1, .i32⟩
  | 22 => ⟨S150000, .f32⟩
  | 23 => ⟨S_, .f32⟩
  | 24 => ⟨S150000, .f32⟩
  | 25 => ⟨S150000, .f32⟩
  | 26 => ⟨S150000, .f32⟩
  | 27 => ⟨S150000x64, .f32⟩
  | 28 => ⟨S_, .i32⟩
  | 29 => ⟨S1250000, .i32⟩
  | 30 => ⟨S1250000, .i1⟩
  | 31 => ⟨S_, .i32⟩
  | 32 => ⟨S1250000, .i32⟩
  | 33 => ⟨S1250000, .i32⟩
  | 34 => ⟨S1250000, .i32⟩
  | 35 => ⟨S1250000x1, .i32⟩
  | 36 => ⟨S1250000, .f32⟩
  | 37 => ⟨S_, .i32⟩
  | 38 => ⟨S1250000, .i32⟩
  | 39 => ⟨S1250000, .i1⟩
  | 40 => ⟨S_, .i32⟩
  | 41 => ⟨S1250000, .i32⟩
  | 42 => ⟨S1250000, .i32⟩
  | 43 => ⟨S1250000, .i32⟩
  | 44 => ⟨S1250000x1, .i32⟩
  | 45 => ⟨S1250000, .f32⟩
  | 46 => ⟨S1250000, .f32⟩
  | 47 => ⟨S1250000x1, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x64, .f32⟩
  | 57 => ⟨S1250000x64, .f32⟩
  | 58 => ⟨S1250000x64, .f32⟩
  | 59 => ⟨S_, .f32⟩
  | 60 => ⟨S150000x64, .f32⟩
  | 61 => ⟨S1250000x1, .i32⟩
  | 62 => ⟨S150000x64, .f32⟩
  | 63 => ⟨S150000, .f32⟩
  | 64 => ⟨S150000x1, .f32⟩
  | 65 => ⟨S150000x64, .f32⟩
  | 66 => ⟨S150000x64, .f32⟩
  | 67 => ⟨S150000x64, .f32⟩
  | 68 => ⟨S1x64, .f32⟩
  | 69 => ⟨S150000x64, .f32⟩
  | 70 => ⟨S150000x64, .f32⟩
  | 71 => ⟨S_, .f32⟩
  | 72 => ⟨S150000x64, .f32⟩
  | 73 => ⟨S150000x64, .f32⟩
  | 74 => ⟨S150000x64, .f32⟩
  | 75 => ⟨S_, .i32⟩
  | 76 => ⟨S1250000, .i32⟩
  | 77 => ⟨S1250000, .i1⟩
  | 78 => ⟨S_, .i32⟩
  | 79 => ⟨S1250000, .i32⟩
  | 80 => ⟨S1250000, .i32⟩
  | 81 => ⟨S1250000, .i32⟩
  | 82 => ⟨S1250000x1, .i32⟩
  | 83 => ⟨S1250000, .f32⟩
  | 84 => ⟨S_, .i32⟩
  | 85 => ⟨S1250000, .i32⟩
  | 86 => ⟨S1250000, .i1⟩
  | 87 => ⟨S_, .i32⟩
  | 88 => ⟨S1250000, .i32⟩
  | 89 => ⟨S1250000, .i32⟩
  | 90 => ⟨S1250000, .i32⟩
  | 91 => ⟨S1250000x1, .i32⟩
  | 92 => ⟨S1250000, .f32⟩
  | 93 => ⟨S1250000, .f32⟩
  | 94 => ⟨S1250000x1, .f32⟩
  | 95 => ⟨S_, .i32⟩
  | 96 => ⟨S1250000, .i32⟩
  | 97 => ⟨S1250000, .i1⟩
  | 98 => ⟨S_, .i32⟩
  | 99 => ⟨S1250000, .i32⟩
  | 100 => ⟨S1250000, .i32⟩
  | 101 => ⟨S1250000, .i32⟩
  | 102 => ⟨S1250000x1, .i32⟩
  | 103 => ⟨S1250000x64, .f32⟩
  | 104 => ⟨S1250000x64, .f32⟩
  | 105 => ⟨S1250000x64, .f32⟩
  | 106 => ⟨S_, .f32⟩
  | 107 => ⟨S150000x64, .f32⟩
  | 108 => ⟨S1250000x1, .i32⟩
  | 109 => ⟨S150000x64, .f32⟩
  | 110 => ⟨S150000, .f32⟩
  | 111 => ⟨S150000x1, .f32⟩
  | 112 => ⟨S150000x64, .f32⟩
  | 113 => ⟨S150000x64, .f32⟩
  | 114 => ⟨S150000x64, .f32⟩
  | 115 => ⟨S1x64, .f32⟩
  | 116 => ⟨S150000x64, .f32⟩
  | 117 => ⟨S150000x64, .f32⟩
  | 118 => ⟨S_, .f32⟩
  | 119 => ⟨S150000x64, .f32⟩
  | 120 => ⟨S150000x64, .f32⟩
  | 121 => ⟨S150000x64, .f32⟩
  | 122 => ⟨S_, .i32⟩
  | 123 => ⟨S1250000, .i32⟩
  | 124 => ⟨S1250000, .i1⟩
  | 125 => ⟨S_, .i32⟩
  | 126 => ⟨S1250000, .i32⟩
  | 127 => ⟨S1250000, .i32⟩
  | _ => ⟨S150000x2, .f32⟩

abbrev hbmTy0_1 (i : Nat) : BufTy := match i % 128 with
  | 0 => ⟨S1250000, .i32⟩
  | 1 => ⟨S1250000x1, .i32⟩
  | 2 => ⟨S1250000, .f32⟩
  | 3 => ⟨S_, .i32⟩
  | 4 => ⟨S1250000, .i32⟩
  | 5 => ⟨S1250000, .i1⟩
  | 6 => ⟨S_, .i32⟩
  | 7 => ⟨S1250000, .i32⟩
  | 8 => ⟨S1250000, .i32⟩
  | 9 => ⟨S1250000, .i32⟩
  | 10 => ⟨S1250000x1, .i32⟩
  | 11 => ⟨S1250000, .f32⟩
  | 12 => ⟨S1250000, .f32⟩
  | 13 => ⟨S1250000x1, .f32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000x64, .f32⟩
  | 23 => ⟨S1250000x64, .f32⟩
  | 24 => ⟨S1250000x64, .f32⟩
  | 25 => ⟨S_, .f32⟩
  | 26 => ⟨S150000x64, .f32⟩
  | 27 => ⟨S1250000x1, .i32⟩
  | 28 => ⟨S150000x64, .f32⟩
  | 29 => ⟨S150000, .f32⟩
  | 30 => ⟨S150000x1, .f32⟩
  | 31 => ⟨S150000x64, .f32⟩
  | 32 => ⟨S150000x64, .f32⟩
  | 33 => ⟨S150000x64, .f32⟩
  | 34 => ⟨S1x64, .f32⟩
  | 35 => ⟨S150000x64, .f32⟩
  | 36 => ⟨S150000x64, .f32⟩
  | 37 => ⟨S_, .f32⟩
  | 38 => ⟨S150000x64, .f32⟩
  | 39 => ⟨S150000x64, .f32⟩
  | 40 => ⟨S_, .f32⟩
  | 41 => ⟨S4096x64, .f32⟩
  | 42 => ⟨S150000x1, .i32⟩
  | 43 => ⟨S4096x64, .f32⟩
  | 44 => ⟨S_, .f32⟩
  | 45 => ⟨S150000, .f32⟩
  | 46 => ⟨S_, .f32⟩
  | 47 => ⟨S4096, .f32⟩
  | 48 => ⟨S150000x1, .i32⟩
  | 49 => ⟨S4096, .f32⟩
  | 50 => ⟨S_, .f32⟩
  | 51 => ⟨S4096, .f32⟩
  | 52 => ⟨S4096, .f32⟩
  | 53 => ⟨S4096x1, .f32⟩
  | 54 => ⟨S4096x64, .f32⟩
  | 55 => ⟨S4096x64, .f32⟩
  | 56 => ⟨S4096x32, .f32⟩
  | 57 => ⟨S1x32, .f32⟩
  | 58 => ⟨S4096x32, .f32⟩
  | 59 => ⟨S4096x32, .f32⟩
  | 60 => ⟨S_, .f32⟩
  | 61 => ⟨S4096x32, .f32⟩
  | 62 => ⟨S4096x32, .f32⟩
  | 63 => ⟨S4096x1, .f32⟩
  | 64 => ⟨S1x1, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | _ => ⟨S150000x2, .f32⟩

abbrev hbmTy (i : Nat) : BufTy := match i / 128 with
  | 0 => hbmTy0_0 i
  | 1 => hbmTy0_1 i
  | _ => ⟨S150000x2, .f32⟩

abbrev bufTy : (tb : Table) → Fin (tcTables nBuf tb) → BufTy
  | .hbm, ⟨i, _⟩ => hbmTy i
  | _, _ => ⟨S150000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_19 : Ref sig .tc := ⟨.hbm, 142, rfl⟩
abbrev main_v104 : Ref sig .tc := ⟨.hbm, 143, rfl⟩
abbrev main_v105 : Ref sig .tc := ⟨.hbm, 144, rfl⟩
abbrev main_c_20 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_23 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_25 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call3_cst : Ref sig .tc := ⟨.hbm, 188, rfl⟩
abbrev main_call3_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_26 : Ref sig .tc := ⟨.hbm, 197, rfl⟩
abbrev main_v148 : Ref sig .tc := ⟨.hbm, 198, rfl⟩
abbrev main_v149 : Ref sig .tc := ⟨.hbm, 199, rfl⟩
abbrev main_cst_27 : Ref sig .tc := ⟨.hbm, 200, rfl⟩
abbrev main_v150 : Ref sig .tc := ⟨.hbm, 201, rfl⟩
abbrev main_v151 : Ref sig .tc := ⟨.hbm, 202, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S150000 : S_.BroadcastsInDim S150000 (![] : Fin 0 → Fin S150000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S150000x64 : S_.BroadcastsInDim S150000x64 (![] : Fin 0 → Fin S150000x64.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S4096x64 : S_.BroadcastsInDim S4096x64 (![] : Fin 0 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  scatter_S150000_S1250000x1_S1250000_n_0_0_1_wf : ScatterDims.WF S150000 S1250000x1 S1250000 [] [0] [0] 1
  dot_S150000x2_S2x64_S150000x64_1_0_0_1_n_n_wf : DotDims.WF S150000x2 S2x64 S150000x64 [1] [0] [0] [1] [] []
  gather_S150000_S1250000x1_S1250000_n_0_n_n_0_1_1_wf : GatherDims.WF S150000 S1250000x1 S1250000 [] [0] [] [0] [] 1 ![1]
  gather_S150000x64_S1250000x1_S1250000x64_1_0_n_n_0_1_164_wf : GatherDims.WF S150000x64 S1250000x1 S1250000x64 [1] [0] [] [0] [] 1 ![1, 64]
  scatter_S150000x64_S1250000x1_S1250000x64_1_0_0_1_wf : ScatterDims.WF S150000x64 S1250000x1 S1250000x64 [1] [0] [0] 1
  dot_S150000x64_S64x64_S150000x64_1_0_0_1_n_n_wf : DotDims.WF S150000x64 S64x64 S150000x64 [1] [0] [0] [1] [] []
  scatter_S4096x64_S150000x1_S150000x64_1_0_0_1_wf : ScatterDims.WF S4096x64 S150000x1 S150000x64 [1] [0] [0] 1
  scatter_S4096_S150000x1_S150000_n_0_0_1_wf : ScatterDims.WF S4096 S150000x1 S150000 [] [0] [0] 1
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []

variable [Facts₀]

def scatter_S150000_S1250000x1_S1250000_n_0_0_1 : ScatterDims S150000 S1250000x1 S1250000 where
  updateWindowDims := []
  insertedWindowDims := [0]
  scatterDimsToOperandDims := [0]
  indexVectorDim := 1
  wf := scatter_S150000_S1250000x1_S1250000_n_0_0_1_wf
def dot_S150000x2_S2x64_S150000x64_1_0_0_1_n_n : DotDims S150000x2 S2x64 S150000x64 where
  lhsContracting := [1]
  rhsContracting := [0]
  lhsNonContracting := [0]
  rhsNonContracting := [1]
  lhsBatch := []
  rhsBatch := []
  wf := dot_S150000x2_S2x64_S150000x64_1_0_0_1_n_n_wf
def gather_S150000_S1250000x1_S1250000_n_0_n_n_0_1_1 : GatherDims S150000 S1250000x1 S1250000 where
  offsetDims := []
  collapsedSliceDims := [0]
  operandBatchingDims := []
  startIndicesBatchingDims := []
  startIndexMap := [0]
  indexVectorDim := 1
  sliceSizes := ![1]
  wf := gather_S150000_S1250000x1_S1250000_n_0_n_n_0_1_1_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def scatter_S4096x64_S150000x1_S150000x64_1_0_0_1 : ScatterDims S4096x64 S150000x1 S150000x64 where
  updateWindowDims := [1]
  insertedWindowDims := [0]
  scatterDimsToOperandDims := [0]
  indexVectorDim := 1
  wf := scatter_S4096x64_S150000x1_S150000x64_1_0_0_1_wf
def scatter_S4096_S150000x1_S150000_n_0_0_1 : ScatterDims S4096 S150000x1 S150000 where
  updateWindowDims := []
  insertedWindowDims := [0]
  scatterDimsToOperandDims := [0]
  indexVectorDim := 1
  wf := scatter_S4096_S150000x1_S150000_n_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KRun.lean ====
import proofs.«147156_j31190052504456_1_alg».proof.Proof.Gen.KernelIdeal.Frame

/-!
The run of the idealized kernel program with its result named: every weakly fair execution terminates, nothing
faults, the thirteen argument arrays end as launched, and the result array ends at the contents the last of the
twelve segment boundaries gives it (the fold of the host stretches and the seven regions' write-backs from the
launch memory).
-/

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the
    result array holding the last boundary's contents and every argument array its launch contents. -/
theorem run_val : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KVal

end
-- ==== Proof.Keep.lean ====
import proofs.«147156_j31190052504456_1_alg».proof.Proof.Gen.KernelIdeal.Frame
import proofs.«147156_j31190052504456_1_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

/-! A buffer that no operation of a host stretch writes and that is no array of a region's windows holds after the
stretch, or after the region, what it held before. The lemmas below say so boundary by boundary, for any buffer `b`,
with the "not written" facts as hypotheses (each decided where the lemma is used). -/

/-- Decides that a buffer is written by no operation of one of the five host stretches: the stretch's operations are
    listed, each one's written buffer is compared with the given one. -/
macro "host_keep" : tactic => `(tactic| (
  refine List.forall_iff_forall_mem.mp ?_
  simp only [hostOps0, hostOps1, hostOps3, hostOps5, hostOps6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A buffer no operation of the first host stretch writes holds its launch contents at region 0's entry. -/
theorem k1 (b : Ref sig .tc) (h : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ h).trans rfl

theorem k2 (b : Ref sig .tc) (h : ∀ w, Pipeline.arrRef spec0 w ≠ b) :
    W2 m ρ c (Proc.devRef .tc b) = W1 m ρ c (Proc.devRef .tc b) := W2_of_ne m ρ c b h

theorem k3 (b : Ref sig .tc) (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

theorem k4 (b : Ref sig .tc) (h : ∀ w, Pipeline.arrRef spec1 w ≠ b) :
    W4 m ρ c (Proc.devRef .tc b) = W3 m ρ c (Proc.devRef .tc b) := W4_of_ne m ρ c b h

theorem k5 (b : Ref sig .tc) (h : ∀ w, Pipeline.arrRef spec2 w ≠ b) :
    W5 m ρ c (Proc.devRef .tc b) = W4 m ρ c (Proc.devRef .tc b) := W5_of_ne m ρ c b h

theorem k6 (b : Ref sig .tc) (h : ∀ op ∈ (hostOps3 : List (HloOp τ sig (Elt Ideal))), (Proc.devRef .tc b : DevRef τ sig) ∉ op.writes) :
    W6 m ρ c (Proc.devRef .tc b) = W5 m ρ c (Proc.devRef .tc b) :=
  StableHlo.after_of_forall_not_mem (b := Proc.devRef .tc b) _ _ h

theorem k7 (b : Ref sig .tc) (h : ∀ w, Pipeline.arrRef spec3 w ≠ b) :
    W7 m ρ c (Proc.devRef .tc b) = W6 m ρ c (Proc.devRef .tc b) := W7_of_ne m ρ c b h

theorem k8 (b : Ref sig .tc) (h : ∀ w, Pipeline.arrRef spec4 w ≠ b) :
    W8 m ρ c (Proc.devRef .tc b) = W7 m ρ c (Proc.devRef .tc b) := W8_of_ne m ρ c b h

theorem k9 (b : Ref sig .tc) (h : ∀ op ∈ (hostOps5 : List (HloOp τ sig (Elt Ideal))), (Proc.devRef .tc b : DevRef τ sig) ∉ op.writes) :
    W9 m ρ c (Proc.devRef .tc b) = W8 m ρ c (Proc.devRef .tc b) :=
  StableHlo.after_of_forall_not_mem (b := Proc.devRef .tc b) _ _ h

theorem k10 (b : Ref sig .tc) (h : ∀ w, Pipeline.arrRef spec5 w ≠ b) :
    W10 m ρ c (Proc.devRef .tc b) = W9 m ρ c (Proc.devRef .tc b) := W10_of_ne m ρ c b h

theorem k11 (b : Ref sig .tc) (h : ∀ op ∈ (hostOps6 : List (HloOp τ sig (Elt Ideal))), (Proc.devRef .tc b : DevRef τ sig) ∉ op.writes) :
    W11 m ρ c (Proc.devRef .tc b) = W10 m ρ c (Proc.devRef .tc b) :=
  StableHlo.after_of_forall_not_mem (b := Proc.devRef .tc b) _ _ h

end Cert.KernelIdeal.Keep

end
-- ==== Proof.Stage1.lean ====
import proofs.«147156_j31190052504456_1_alg».proof.Proof.Gen.KernelIdeal.Frame
import proofs.«147156_j31190052504456_1_alg».proof.Proof.Gen.ReferenceIdeal.Read
import proofs.«147156_j31190052504456_1_alg».proof.Proof.Keep
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

open Cert.ReferenceIdeal.Read (val_main_v1 val_main_v3 val_main_v26 val_main_v42 val_main_v10)
set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)

/-! The first host stretch (the edge endpoints, the inverse square roots of the degrees, their products along the
edges and their squares spread over the feature axis) leaves in the kernel program's buffers exactly the values the
reference program computes for them: the same operations applied to the same edge array. -/

set_option maxHeartbeats 1600000 in
/-- The source endpoints. -/
theorem v1_W1 : W1 m ρ c (Proc.devRef .tc main_v1) = val_main_v1 (F := Ideal) X1 := by
  show StableHlo.after hostOps0 _ (Proc.devRef .tc main_v1) = _
  after_results_simp <;> rfl

set_option maxHeartbeats 1600000 in
/-- The target endpoints. -/
theorem v3_W1 : W1 m ρ c (Proc.devRef .tc main_v3) = val_main_v3 (F := Ideal) X1 := by
  show StableHlo.after hostOps0 _ (Proc.devRef .tc main_v3) = _
  after_results_simp <;> rfl

set_option maxHeartbeats 1600000 in
/-- The squared inverse square root of the degree, spread over the 64 features. -/
theorem v13_W1 : W1 m ρ c (Proc.devRef .tc main_v13) = val_main_v42 (F := Ideal) X1 := by
  show StableHlo.after hostOps0 _ (Proc.devRef .tc main_v13) = _
  after_results_simp <;> rfl

set_option maxHeartbeats 1600000 in
/-- The edge coefficients: the product of the two endpoints' inverse square roots of the degree. -/
theorem v28_W1 : W1 m ρ c (Proc.devRef .tc main_v28) = val_main_v26 (F := Ideal) X1 := by
  show StableHlo.after hostOps0 _ (Proc.devRef .tc main_v28) = _
  after_results_simp <;> rfl

end Cert.KernelIdeal.Chain

end
-- ==== Proof.RegLin.lean ====
import proofs.«147156_j31190052504456_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

theorem lin_hz : (![0, 0] : Fin 2 → Nat) = fun _ => 0 := funext fun a => by fin_cases a <;> rfl

/-! ## The two products' operand indices -/

/-- Row coordinate of the first operand's index of the product: the output's row. -/
theorem linDotA_lhs_0 (i : S10000x64.Idx) (z : dot_S10000x2_S2x64_S10000x64_1_0_0_1_n_n.contr.Idx) :
    (dot_S10000x2_S2x64_S10000x64_1_0_0_1_n_n.lhsIdx i z 0).val = (i 0).val := by
  unfold DotDims.lhsIdx
  rw [dif_neg (show ¬(0 : Fin S10000x2.rank) ∈ dot_S10000x2_S2x64_S10000x64_1_0_0_1_n_n.lhsBatch by decide), dif_pos (show (0 : Fin S10000x2.rank) ∈ dot_S10000x2_S2x64_S10000x64_1_0_0_1_n_n.lhsNonContracting by decide)]
  rfl
/-- Column coordinate of the first operand's index: the contraction index. -/
theorem linDotA_lhs_1 (i : S10000x64.Idx) (z : dot_S10000x2_S2x64_S10000x64_1_0_0_1_n_n.contr.Idx) :
    (dot_S10000x2_S2x64_S10000x64_1_0_0_1_n_n.lhsIdx i z 1).val = (z ⟨0, by decide⟩).val :=
  dot_S10000x2_S2x64_S10000x64_1_0_0_1_n_n.lhsIdx_val_of_single rfl i z
/-- Row coordinate of the second operand's index: the contraction index. -/
theorem linDotA_rhs_0 (i : S10000x64.Idx) (z : dot_S10000x2_S2x64_S10000x64_1_0_0_1_n_n.contr.Idx) :
    (dot_S10000x2_S2x64_S10000x64_1_0_0_1_n_n.rhsIdx i z 0).val = (z ⟨0, by decide⟩).val :=
  dot_S10000x2_S2x64_S10000x64_1_0_0_1_n_n.rhsIdx_val_of_single rfl i z
/-- Column coordinate of the second operand's index: the output's column. -/
theorem linDotA_rhs_1 (i : S10000x64.Idx) (z : dot_S10000x2_S2x64_S10000x64_1_0_0_1_n_n.contr.Idx) :
    (dot_S10000x2_S2x64_S10000x64_1_0_0_1_n_n.rhsIdx i z 1).val = (i 1).val := by
  unfold DotDims.rhsIdx
  rw [dif_neg (show ¬(1 : Fin S2x64.rank) ∈ dot_S10000x2_S2x64_S10000x64_1_0_0_1_n_n.rhsBatch by decide), dif_pos (show (1 : Fin S2x64.rank) ∈ dot_S10000x2_S2x64_S10000x64_1_0_0_1_n_n.rhsNonContracting by decide)]
  rfl

/-- Row coordinate of the first operand's index of the product: the output's row. -/
theorem linDotB_lhs_0 (i : S10000x64.Idx) (z : dot_S10000x64_S64x64_S10000x64_1_0_0_1_n_n.contr.Idx) :
    (dot_S10000x64_S64x64_S10000x64_1_0_0_1_n_n.lhsIdx i z 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Column coordinate of the first operand's index: the contraction index. -/
theorem linDotB_lhs_1 (i : S10000x64.Idx) (z : dot_S10000x64_S64x64_S10000x64_1_0_0_1_n_n.contr.Idx) :
    (dot_S10000x64_S64x64_S10000x64_1_0_0_1_n_n.lhsIdx i z 1).val = (z ⟨0, by decide⟩).val :=
  dot_S10000x64_S64x64_S10000x64_1_0_0_1_n_n.lhsIdx_val_of_single rfl i z
/-- Row coordinate of the second operand's index: the contraction index. -/
theorem linDotB_rhs_0 (i : S10000x64.Idx) (z : dot_S10000x64_S64x64_S10000x64_1_0_0_1_n_n.contr.Idx) :
    (dot_S10000x64_S64x64_S10000x64_1_0_0_1_n_n.rhsIdx i z 0).val = (z ⟨0, by decide⟩).val :=
  dot_S10000x64_S64x64_S10000x64_1_0_0_1_n_n.rhsIdx_val_of_single rfl i z
/-- Column coordinate of the second operand's index: the output's column. -/
theorem linDotB_rhs_1 (i : S10000x64.Idx) (z : dot_S10000x64_S64x64_S10000x64_1_0_0_1_n_n.contr.Idx) :
    (dot_S10000x64_S64x64_S10000x64_1_0_0_1_n_n.rhsIdx i z 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload of region 0 at row r and column q of its block: the sum over k of x(r,k) * w(k,q)
    (the format changes are the identity on extended reals, the accumulator is the zero splat). -/
theorem lin_pay0_apply (x0 : FVec Ideal S10000x2 .f32) (x1 : FVec Ideal S2x64 .f32) (r : Fin 10000) (q : Fin 64) :
    k0_pay1 (F := Ideal) x0 x1 (ix2 r q) = ∑ k : Fin 2, x0 (ix2 r k) * x1 (ix2 k q) := by
  unfold k0_pay1
  simp only [matmul]
  rw [Ideal.matmul_constant_zero_apply, ← Equiv.sum_comp (contrEquiv1 dot_S10000x2_S2x64_S10000x64_1_0_0_1_n_n 2 rfl rfl).symm]
  refine Finset.sum_congr rfl fun k _ => ?_
  have hk := contrEquiv1_symm_val dot_S10000x2_S2x64_S10000x64_1_0_0_1_n_n 2 rfl rfl k
  have el : dot_S10000x2_S2x64_S10000x64_1_0_0_1_n_n.lhsIdx (ix2 r q) ((contrEquiv1 dot_S10000x2_S2x64_S10000x64_1_0_0_1_n_n 2 rfl rfl).symm k) = ix2 r k := funext fun a => Fin.ext (by
    match a with
    | ⟨0, _⟩ => exact linDotA_lhs_0 _ _
    | ⟨1, _⟩ => exact (linDotA_lhs_1 _ _).trans hk)
  have er : dot_S10000x2_S2x64_S10000x64_1_0_0_1_n_n.rhsIdx (ix2 r q) ((contrEquiv1 dot_S10000x2_S2x64_S10000x64_1_0_0_1_n_n 2 rfl rfl).symm k) = ix2 k q := funext fun a => Fin.ext (by
    match a with
    | ⟨0, _⟩ => exact (linDotA_rhs_0 _ _).trans hk
    | ⟨1, _⟩ => exact linDotA_rhs_1 _ _)
  rw [el, er]
  rfl

/-! ## Region 0 -/

/-- What region 0's output array ends holding: at row p and column q the sum over k of x(p,k) * w(k,q). -/
def lin0G (x : FVec Ideal S150000x2 .f32) (w : FVec Ideal S2x64 .f32) : FVec Ideal S150000x64 .f32 :=
  fun i => ∑ k : Fin 2, x (ix2 (n0 := 150000) (i 0) k) * w (ix2 (n1 := 64) k (i 1))

/-- The index maps over the 15 grid points: the row blocks of x and of the output move with the point, w stays whole. -/
theorem lin_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t holds rows 10000 t … 10000 t + 9999 of x. -/
theorem lin_xblk0 (c : Dev nD) (x : FVec Ideal S150000x2 .f32) (hx : V c main_arg0 = x) (t : Fin cfg0.N)
    (r : Fin 10000) (k : Fin 2) (i : S150000x2.Idx) (h0 : (i 0).val = t.val * 10000 + r.val) (h1 : (i 1).val = k.val) :
    (iblk0 (F := Ideal) V c 0 t : FVec Ideal S10000x2 .f32) (ix2 r k) = x i := by
  obtain ⟨e0, e1, -, -, -, -⟩ := lin_idx0 t
  unfold iblk0
  rw [View.read_apply]
  show V c main_arg0 _ = x i
  rw [hx]
  congr 1
  funext a
  apply Fin.ext
  match a with
  | ⟨0, _⟩ => show win0_0.index t (0 : Fin 2) * 10000 + 1 * r.val = (i 0).val; omega
  | ⟨1, _⟩ => show win0_0.index t (1 : Fin 2) * 2 + 1 * k.val = (i 1).val; omega

/-- The block of w at every point is the whole of w. -/
theorem lin_wblk0 (c : Dev nD) (w : FVec Ideal S2x64 .f32) (hw : V c main_arg3 = w) (t : Fin cfg0.N)
    (k : Fin 2) (q : Fin 64) :
    (iblk0 (F := Ideal) V c 1 t : FVec Ideal S2x64 .f32) (ix2 k q) = w (ix2 k q) := by
  obtain ⟨-, -, e2, e3, -, -⟩ := lin_idx0 t
  unfold iblk0
  rw [View.read_apply]
  show V c main_arg3 _ = w _
  rw [hw]
  congr 1
  funext a
  apply Fin.ext
  match a with
  | ⟨0, _⟩ => show win0_1.index t (0 : Fin 2) * 2 + 1 * k.val = k.val; omega
  | ⟨1, _⟩ => show win0_1.index t (1 : Fin 2) * 64 + 1 * q.val = q.val; omega

/-- What point t writes back is block t of the product. -/
theorem lin_flushed0_eq (c : Dev nD) (x : FVec Ideal S150000x2 .f32) (w : FVec Ideal S2x64 .f32)
    (hx : V c main_arg0 = x) (hw : V c main_arg3 = w) (t : Fin cfg0.N) :
    (dat0 (F := Ideal) V c).flushed 2 t = ((cfg0.win 2).blk t).view.read (Elt Ideal) (lin0G x w) := by
  show (cfg0.win 2).cut (grid0.coords t) ((dat0 V c).after 2 t) = _
  rw [after0_2]
  unfold out0_2
  rw [View.canon_unit_zero lin_hz]
  simp only [View.ld_unit_zero (S := S10000x2) lin_hz, View.ld_unit_zero (S := S2x64) lin_hz]
  obtain ⟨-, -, -, -, e4, e5⟩ := lin_idx0 t
  funext j
  obtain ⟨r, q, rfl⟩ : ∃ (r : Fin 10000) (q : Fin 64), j = ix2 r q := ⟨j 0, j 1, eq_ix2 j⟩
  show k0_pay1 (F := Ideal) (iblk0 V c 0 t) (iblk0 V c 1 t) (ix2 r q) = lin0G x w (((cfg0.win 2).blk t).view.emb (ix2 r q))
  refine (lin_pay0_apply (iblk0 V c 0 t) (iblk0 V c 1 t) r q).trans ?_
  unfold lin0G
  refine Finset.sum_congr rfl fun k _ => ?_
  have hr : ((((cfg0.win 2).blk t).view.emb (ix2 r q)) 0).val = t.val * 10000 + r.val := by
    show win0_2.index t (0 : Fin 2) * 10000 + 1 * r.val = _; omega
  have hq : ((((cfg0.win 2).blk t).view.emb (ix2 r q)) 1).val = q.val := by
    show win0_2.index t (1 : Fin 2) * 64 + 1 * q.val = _; omega
  rw [lin_xblk0 V c x hx t r k (ix2 (n0 := 150000) ((((cfg0.win 2).blk t).view.emb (ix2 r q)) 0) k) hr rfl, lin_wblk0 V c w hw t k q]
  congr 2
  funext a
  match a with
  | ⟨0, _⟩ => rfl
  | ⟨1, _⟩ => exact Fin.ext hq.symm

/-- An index of the output array is in point t's block iff each coordinate is in the block's range on its axis. -/
theorem lin_mem_blk0 (t : Fin cfg0.N) (i : S150000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the output array is in some point's block: row p is in block p / 10000. -/
theorem lin_cover0 (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  have hN : grid0.N = 15 := N_0
  let t : Fin cfg0.N := ⟨(i 0).val / 10000, by show (i 0).val / 10000 < grid0.N; omega⟩
  obtain ⟨-, -, -, -, e4, e5⟩ := lin_idx0 t
  have ht : t.val = (i 0).val / 10000 := rfl
  refine ⟨t, flush0_2 t, ?_⟩
  rw [lin_mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 (a row block of the node features times the whole weight matrix, the blocks tiling the 150000 rows):
    after the region the output array holds, at row p and column q, the sum over k of x(p,k) * w(k,q). -/
theorem lin0 (c : Dev nD) (x : FVec Ideal S150000x2 .f32) (w : FVec Ideal S2x64 .f32)
    (hx : V c main_arg0 = x) (hw : V c main_arg3 = w) (p : Fin 150000) (q : Fin 64) :
    ((dat0 (F := Ideal) V c).arrAt 2 cfg0.N : FVec Ideal S150000x64 .f32) (ix2 p q)
      = ∑ k : Fin 2, x (ix2 p k) * w (ix2 k q) := by
  rw [(dat0 (F := Ideal) V c).arrAt_eq_of_cover 2 (lin0G x w) (fun t _ => lin_flushed0_eq V c x w hx hw t) lin_cover0]
  rfl

/-- The body's payload of region 2 at row r and column q of its block: the sum over k of x(r,k) * w(k,q)
    (the format changes are the identity on extended reals, the accumulator is the zero splat). -/
theorem lin_pay2_apply (x0 : FVec Ideal S10000x64 .f32) (x1 : FVec Ideal S64x64 .f32) (r : Fin 10000) (q : Fin 64) :
    k2_pay1 (F := Ideal) x0 x1 (ix2 r q) = ∑ k : Fin 64, x0 (ix2 r k) * x1 (ix2 k q) := by
  unfold k2_pay1
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k := funext fun a => Fin.ext (by
    match a with
    | ⟨0, _⟩ => exact linDotB_lhs_0 _ _
    | ⟨1, _⟩ => exact (linDotB_lhs_1 _ _).trans hk)
  have er : dot_S10000x64_S64x64_S10000x64_1_0_0_1_n_n.rhsIdx (ix2 r q) ((contrEquiv1 dot_S10000x64_S64x64_S10000x64_1_0_0_1_n_n 64 rfl rfl).symm k) = ix2 k q := funext fun a => Fin.ext (by
    match a with
    | ⟨0, _⟩ => exact (linDotB_rhs_0 _ _).trans hk
    | ⟨1, _⟩ => exact linDotB_rhs_1 _ _)
  rw [el, er]
  rw [shapeCast_self]
  rfl

/-! ## Region 2 -/

/-- What region 2's output array ends holding: at row p and column q the sum over k of x(p,k) * w(k,q). -/
def lin2G (x : FVec Ideal S150000x64 .f32) (w : FVec Ideal S64x64 .f32) : FVec Ideal S150000x64 .f32 :=
  fun i => ∑ k : Fin 64, x (ix2 (n0 := 150000) (i 0) k) * w (ix2 (n1 := 64) k (i 1))

/-- The index maps over the 15 grid points: the row blocks of x and of the output move with the point, w stays whole. -/
theorem lin_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of x at point t holds rows 10000 t … 10000 t + 9999 of x. -/
theorem lin_xblk2 (c : Dev nD) (x : FVec Ideal S150000x64 .f32) (hx : V c main_v44 = x) (t : Fin cfg2.N)
    (r : Fin 10000) (k : Fin 64) (i : S150000x64.Idx) (h0 : (i 0).val = t.val * 10000 + r.val) (h1 : (i 1).val = k.val) :
    (iblk2 (F := Ideal) V c 0 t : FVec Ideal S10000x64 .f32) (ix2 r k) = x i := by
  obtain ⟨e0, e1, -, -, -, -⟩ := lin_idx2 t
  unfold iblk2
  rw [View.read_apply]
  show V c main_v44 _ = x i
  rw [hx]
  congr 1
  funext a
  apply Fin.ext
  match a with
  | ⟨0, _⟩ => show win2_0.index t (0 : Fin 2) * 10000 + 1 * r.val = (i 0).val; omega
  | ⟨1, _⟩ => show win2_0.index t (1 : Fin 2) * 64 + 1 * k.val = (i 1).val; omega

/-- The block of w at every point is the whole of w. -/
theorem lin_wblk2 (c : Dev nD) (w : FVec Ideal S64x64 .f32) (hw : V c main_arg5 = w) (t : Fin cfg2.N)
    (k : Fin 64) (q : Fin 64) :
    (iblk2 (F := Ideal) V c 1 t : FVec Ideal S64x64 .f32) (ix2 k q) = w (ix2 k q) := by
  obtain ⟨-, -, e2, e3, -, -⟩ := lin_idx2 t
  unfold iblk2
  rw [View.read_apply]
  show V c main_arg5 _ = w _
  rw [hw]
  congr 1
  funext a
  apply Fin.ext
  match a with
  | ⟨0, _⟩ => show win2_1.index t (0 : Fin 2) * 64 + 1 * k.val = k.val; omega
  | ⟨1, _⟩ => show win2_1.index t (1 : Fin 2) * 64 + 1 * q.val = q.val; omega

/-- What point t writes back is block t of the product. -/
theorem lin_flushed2_eq (c : Dev nD) (x : FVec Ideal S150000x64 .f32) (w : FVec Ideal S64x64 .f32)
    (hx : V c main_v44 = x) (hw : V c main_arg5 = w) (t : Fin cfg2.N) :
    (dat2 (F := Ideal) V c).flushed 2 t = ((cfg2.win 2).blk t).view.read (Elt Ideal) (lin2G x w) := by
  show (cfg2.win 2).cut (grid2.coords t) ((dat2 V c).after 2 t) = _
  rw [after2_2]
  unfold out2_2
  rw [View.canon_unit_zero lin_hz]
  simp only [View.ld_unit_zero (S := S10000x64) lin_hz, View.ld_unit_zero (S := S64x64) lin_hz]
  obtain ⟨-, -, -, -, e4, e5⟩ := lin_idx2 t
  funext j
  obtain ⟨r, q, rfl⟩ : ∃ (r : Fin 10000) (q : Fin 64), j = ix2 r q := ⟨j 0, j 1, eq_ix2 j⟩
  show k2_pay1 (F := Ideal) (iblk2 V c 0 t) (iblk2 V c 1 t) (ix2 r q) = lin2G x w (((cfg2.win 2).blk t).view.emb (ix2 r q))
  refine (lin_pay2_apply (iblk2 V c 0 t) (iblk2 V c 1 t) r q).trans ?_
  unfold lin2G
  refine Finset.sum_congr rfl fun k _ => ?_
  have hr : ((((cfg2.win 2).blk t).view.emb (ix2 r q)) 0).val = t.val * 10000 + r.val := by
    show win2_2.index t (0 : Fin 2) * 10000 + 1 * r.val = _; omega
  have hq : ((((cfg2.win 2).blk t).view.emb (ix2 r q)) 1).val = q.val := by
    show win2_2.index t (1 : Fin 2) * 64 + 1 * q.val = _; omega
  rw [lin_xblk2 V c x hx t r k (ix2 (n0 := 150000) ((((cfg2.win 2).blk t).view.emb (ix2 r q)) 0) k) hr rfl, lin_wblk2 V c w hw t k q]
  congr 2
  funext a
  match a with
  | ⟨0, _⟩ => rfl
  | ⟨1, _⟩ => exact Fin.ext hq.symm

/-- An index of the output array is in point t's block iff each coordinate is in the block's range on its axis. -/
theorem lin_mem_blk2 (t : Fin cfg2.N) (i : S150000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Every index of the output array is in some point's block: row p is in block p / 10000. -/
theorem lin_cover2 (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  have hN : grid2.N = 15 := N_2
  let t : Fin cfg2.N := ⟨(i 0).val / 10000, by show (i 0).val / 10000 < grid2.N; omega⟩
  obtain ⟨-, -, -, -, e4, e5⟩ := lin_idx2 t
  have ht : t.val = (i 0).val / 10000 := rfl
  refine ⟨t, flush2_2 t, ?_⟩
  rw [lin_mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- Region 2 (a row block of the node features times the whole weight matrix, the blocks tiling the 150000 rows):
    after the region the output array holds, at row p and column q, the sum over k of x(p,k) * w(k,q). -/
theorem lin2 (c : Dev nD) (x : FVec Ideal S150000x64 .f32) (w : FVec Ideal S64x64 .f32)
    (hx : V c main_v44 = x) (hw : V c main_arg5 = w) (p : Fin 150000) (q : Fin 64) :
    ((dat2 (F := Ideal) V c).arrAt 2 cfg2.N : FVec Ideal S150000x64 .f32) (ix2 p q)
      = ∑ k : Fin 64, x (ix2 p k) * w (ix2 k q) := by
  rw [(dat2 (F := Ideal) V c).arrAt_eq_of_cover 2 (lin2G x w) (fun t _ => lin_flushed2_eq V c x w hx hw t) lin_cover2]
  rfl

/-- The body's payload of region 4 at row r and column q of its block: the sum over k of x(r,k) * w(k,q)
    (the format changes are the identity on extended reals, the accumulator is the zero splat). -/
theorem lin_pay4_apply (x0 : FVec Ideal S10000x64 .f32) (x1 : FVec Ideal S64x64 .f32) (r : Fin 10000) (q : Fin 64) :
    k4_pay1 (F := Ideal) x0 x1 (ix2 r q) = ∑ k : Fin 64, x0 (ix2 r k) * x1 (ix2 k q) := by
  unfold k4_pay1
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k := funext fun a => Fin.ext (by
    match a with
    | ⟨0, _⟩ => exact linDotB_lhs_0 _ _
    | ⟨1, _⟩ => exact (linDotB_lhs_1 _ _).trans hk)
  have er : dot_S10000x64_S64x64_S10000x64_1_0_0_1_n_n.rhsIdx (ix2 r q) ((contrEquiv1 dot_S10000x64_S64x64_S10000x64_1_0_0_1_n_n 64 rfl rfl).symm k) = ix2 k q := funext fun a => Fin.ext (by
    match a with
    | ⟨0, _⟩ => exact (linDotB_rhs_0 _ _).trans hk
    | ⟨1, _⟩ => exact linDotB_rhs_1 _ _)
  rw [el, er]
  rw [shapeCast_self]
  rfl

/-! ## Region 4 -/

/-- What region 4's output array ends holding: at row p and column q the sum over k of x(p,k) * w(k,q). -/
def lin4G (x : FVec Ideal S150000x64 .f32) (w : FVec Ideal S64x64 .f32) : FVec Ideal S150000x64 .f32 :=
  fun i => ∑ k : Fin 64, x (ix2 (n0 := 150000) (i 0) k) * w (ix2 (n1 := 64) k (i 1))

/-- The index maps over the 15 grid points: the row blocks of x and of the output move with the point, w stays whole. -/
theorem lin_idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block of x at point t holds rows 10000 t … 10000 t + 9999 of x. -/
theorem lin_xblk4 (c : Dev nD) (x : FVec Ideal S150000x64 .f32) (hx : V c main_v60 = x) (t : Fin cfg4.N)
    (r : Fin 10000) (k : Fin 64) (i : S150000x64.Idx) (h0 : (i 0).val = t.val * 10000 + r.val) (h1 : (i 1).val = k.val) :
    (iblk4 (F := Ideal) V c 0 t : FVec Ideal S10000x64 .f32) (ix2 r k) = x i := by
  obtain ⟨e0, e1, -, -, -, -⟩ := lin_idx4 t
  unfold iblk4
  rw [View.read_apply]
  show V c main_v60 _ = x i
  rw [hx]
  congr 1
  funext a
  apply Fin.ext
  match a with
  | ⟨0, _⟩ => show win4_0.index t (0 : Fin 2) * 10000 + 1 * r.val = (i 0).val; omega
  | ⟨1, _⟩ => show win4_0.index t (1 : Fin 2) * 64 + 1 * k.val = (i 1).val; omega

/-- The block of w at every point is the whole of w. -/
theorem lin_wblk4 (c : Dev nD) (w : FVec Ideal S64x64 .f32) (hw : V c main_arg7 = w) (t : Fin cfg4.N)
    (k : Fin 64) (q : Fin 64) :
    (iblk4 (F := Ideal) V c 1 t : FVec Ideal S64x64 .f32) (ix2 k q) = w (ix2 k q) := by
  obtain ⟨-, -, e2, e3, -, -⟩ := lin_idx4 t
  unfold iblk4
  rw [View.read_apply]
  show V c main_arg7 _ = w _
  rw [hw]
  congr 1
  funext a
  apply Fin.ext
  match a with
  | ⟨0, _⟩ => show win4_1.index t (0 : Fin 2) * 64 + 1 * k.val = k.val; omega
  | ⟨1, _⟩ => show win4_1.index t (1 : Fin 2) * 64 + 1 * q.val = q.val; omega

/-- What point t writes back is block t of the product. -/
theorem lin_flushed4_eq (c : Dev nD) (x : FVec Ideal S150000x64 .f32) (w : FVec Ideal S64x64 .f32)
    (hx : V c main_v60 = x) (hw : V c main_arg7 = w) (t : Fin cfg4.N) :
    (dat4 (F := Ideal) V c).flushed 2 t = ((cfg4.win 2).blk t).view.read (Elt Ideal) (lin4G x w) := by
  show (cfg4.win 2).cut (grid4.coords t) ((dat4 V c).after 2 t) = _
  rw [after4_2]
  unfold out4_2
  rw [View.canon_unit_zero lin_hz]
  simp only [View.ld_unit_zero (S := S10000x64) lin_hz, View.ld_unit_zero (S := S64x64) lin_hz]
  obtain ⟨-, -, -, -, e4, e5⟩ := lin_idx4 t
  funext j
  obtain ⟨r, q, rfl⟩ : ∃ (r : Fin 10000) (q : Fin 64), j = ix2 r q := ⟨j 0, j 1, eq_ix2 j⟩
  show k4_pay1 (F := Ideal) (iblk4 V c 0 t) (iblk4 V c 1 t) (ix2 r q) = lin4G x w (((cfg4.win 2).blk t).view.emb (ix2 r q))
  refine (lin_pay4_apply (iblk4 V c 0 t) (iblk4 V c 1 t) r q).trans ?_
  unfold lin4G
  refine Finset.sum_congr rfl fun k _ => ?_
  have hr : ((((cfg4.win 2).blk t).view.emb (ix2 r q)) 0).val = t.val * 10000 + r.val := by
    show win4_2.index t (0 : Fin 2) * 10000 + 1 * r.val = _; omega
  have hq : ((((cfg4.win 2).blk t).view.emb (ix2 r q)) 1).val = q.val := by
    show win4_2.index t (1 : Fin 2) * 64 + 1 * q.val = _; omega
  rw [lin_xblk4 V c x hx t r k (ix2 (n0 := 150000) ((((cfg4.win 2).blk t).view.emb (ix2 r q)) 0) k) hr rfl, lin_wblk4 V c w hw t k q]
  congr 2
  funext a
  match a with
  | ⟨0, _⟩ => rfl
  | ⟨1, _⟩ => exact Fin.ext hq.symm

/-- An index of the output array is in point t's block iff each coordinate is in the block's range on its axis. -/
theorem lin_mem_blk4 (t : Fin cfg4.N) (i : S150000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Every index of the output array is in some point's block: row p is in block p / 10000. -/
theorem lin_cover4 (i : S150000x64.Idx) :
    ∃ t : Fin cfg4.N, (cfg4.win 2).flush t = true ∧ i ∈ ((cfg4.win 2).blk t).view.set := by
  have hi0 : (i 0).val < 150000 := (i 0).isLt
  have hi1 : (i 1).val < 64 := (i 1).isLt
  have hN : grid4.N = 15 := N_4
  let t : Fin cfg4.N := ⟨(i 0).val / 10000, by show (i 0).val / 10000 < grid4.N; omega⟩
  obtain ⟨-, -, -, -, e4, e5⟩ := lin_idx4 t
  have ht : t.val = (i 0).val / 10000 := rfl
  refine ⟨t, flush4_2 t, ?_⟩
  rw [lin_mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- Region 4 (a row block of the node features times the whole weight matrix, the blocks tiling the 150000 rows):
    after the region the output array holds, at row p and column q, the sum over k of x(p,k) * w(k,q). -/
theorem lin4 (c : Dev nD) (x : FVec Ideal S150000x64 .f32) (w : FVec Ideal S64x64 .f32)
    (hx : V c main_v60 = x) (hw : V c main_arg7 = w) (p : Fin 150000) (q : Fin 64) :
    ((dat4 (F := Ideal) V c).arrAt 2 cfg4.N : FVec Ideal S150000x64 .f32) (ix2 p q)
      = ∑ k : Fin 64, x (ix2 p k) * w (ix2 k q) := by
  rw [(dat4 (F := Ideal) V c).arrAt_eq_of_cover 2 (lin4G x w) (fun t _ => lin_flushed4_eq V c x w hx hw t) lin_cover4]
  rfl

end Cert.KernelIdeal.RegVal

end
-- ==== Proof.RegComb.lean ====
import proofs.«147156_j31190052504456_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- The zero offset of a whole-buffer access. -/
theorem comb_hz : (![0, 0] : Fin 2 → Nat) = fun _ => 0 := funext fun a => by fin_cases a <;> rfl

/-- The whole-array function a combine region computes: at row p and column q,
    max ((agg(p,q) + h(p,q) * d(p,q)) + b(0,q)) 0. -/
abbrev combG (agg h d : FVec Ideal S150000x64 .f32) (b : FVec Ideal S1x64 .f32) : S150000x64.Idx → Elt Ideal .f32 :=
  fun i => max ((agg i + h i * d i) + b (ix2 (0 : Fin 1) (i 1))) (Ideal.ofBits .f32 0x00000000#32)

/-! ## Region 1 -/

/-- The region's payload at row r and column q of a block: the three row blocks combined pointwise, the bias row
    repeated down the rows, then the maximum with the zero word. -/
theorem comb1_pay (x0 x1 x2 : FVec Ideal S10000x64 .f32) (x3 : FVec Ideal S1x64 .f32) (r : Fin 10000) (q : Fin 64) :
    k1_pay1 (F := Ideal) x0 x1 x2 x3 (ix2 r q)
      = max ((x0 (ix2 r q) + x1 (ix2 r q) * x2 (ix2 r q)) + x3 (ix2 (0 : Fin 1) q)) (Ideal.ofBits .f32 0x00000000#32) := by
  unfold k1_pay1
  simp only [shapeCast_self]
  show max ((x0 (ix2 r q) + x1 (ix2 r q) * x2 (ix2 r q)) + broadcastTo S10000x64 x3 _ (ix2 r q)) _ = _
  rw [broadcastTo_1b_ab_apply]
  rfl

/-- The block index of every window at every grid point: the three row-block inputs and the output sit at block
    (t, 0), the bias at block (0, 0). -/
theorem comb1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1000000 in
/-- What grid point t writes back is block t of the whole-array function. -/
theorem comb1_flushed (c : Dev nD) (agg h d : FVec Ideal S150000x64 .f32) (b : FVec Ideal S1x64 .f32)
    (hagg : V c main_v42 = agg) (hh : V c main_v29 = h) (hd : V c main_v13 = d) (hb : V c main_v43 = b) (t : Fin cfg1.N) :
    (dat1 (F := Ideal) V c).flushed 4 t = ((cfg1.win 4).blk t).view.read (Elt Ideal) (combG agg h d b) := by
  show (cfg1.win 4).cut (grid1.coords t) ((dat1 V c).after 4 t) = _
  rw [after1_4]
  unfold out1_4
  rw [View.canon_unit_zero comb_hz]
  simp only [View.ld_unit_zero (S := S10000x64) comb_hz, View.ld_unit_zero (S := S1x64) comb_hz]
  obtain ⟨a0, a1, b0, b1, c0, c1, d0, d1, o0, o1⟩ := comb1_idx t
  refine funext fun (j : S10000x64.Idx) => ?_
  obtain ⟨r, q, rfl⟩ : ∃ (r : Fin 10000) (q : Fin 64), j = ix2 r q := ⟨j 0, j 1, eq_ix2 j⟩
  have hr : r.val < 10000 := r.isLt
  have hq : q.val < 64 := q.isLt
  show k1_pay1 (F := Ideal) (iblk1 V c 0 t) (iblk1 V c 1 t) (iblk1 V c 2 t) (iblk1 V c 3 t) (ix2 r q)
      = combG agg h d b (((cfg1.win 4).blk t).view.emb (ix2 r q))
  refine (comb1_pay (iblk1 V c 0 t) (iblk1 V c 1 t) (iblk1 V c 2 t) (iblk1 V c 3 t) r q).trans ?_
  have h0 : ((cfg1.win 0).blk t).view.emb (ix2 r q) = ((cfg1.win 4).blk t).view.emb (ix2 r q) := by
    funext a; apply Fin.ext
    match a with
    | ⟨0, _⟩ => show win1_0.index t (0 : Fin 2) * 10000 + 1 * r.val = win1_4.index t (0 : Fin 2) * 10000 + 1 * r.val; omega
    | ⟨1, _⟩ => show win1_0.index t (1 : Fin 2) * 64 + 1 * q.val = win1_4.index t (1 : Fin 2) * 64 + 1 * q.val; omega
  have h1 : ((cfg1.win 1).blk t).view.emb (ix2 r q) = ((cfg1.win 4).blk t).view.emb (ix2 r q) := by
    funext a; apply Fin.ext
    match a with
    | ⟨0, _⟩ => show win1_1.index t (0 : Fin 2) * 10000 + 1 * r.val = win1_4.index t (0 : Fin 2) * 10000 + 1 * r.val; omega
    | ⟨1, _⟩ => show win1_1.index t (1 : Fin 2) * 64 + 1 * q.val = win1_4.index t (1 : Fin 2) * 64 + 1 * q.val; omega
  have h2 : ((cfg1.win 2).blk t).view.emb (ix2 r q) = ((cfg1.win 4).blk t).view.emb (ix2 r q) := by
    funext a; apply Fin.ext
    match a with
    | ⟨0, _⟩ => show win1_2.index t (0 : Fin 2) * 10000 + 1 * r.val = win1_4.index t (0 : Fin 2) * 10000 + 1 * r.val; omega
    | ⟨1, _⟩ => show win1_2.index t (1 : Fin 2) * 64 + 1 * q.val = win1_4.index t (1 : Fin 2) * 64 + 1 * q.val; omega
  have h3 : ((cfg1.win 3).blk t).view.emb (ix2 (0 : Fin 1) q)
      = ix2 (0 : Fin 1) ((((cfg1.win 4).blk t).view.emb (ix2 r q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  have e0 : iblk1 (F := Ideal) V c 0 t (ix2 r q) = agg (((cfg1.win 4).blk t).view.emb (ix2 r q)) := by
    rw [← hagg]
    show V c main_v42 (((cfg1.win 0).blk t).view.emb (ix2 r q)) = V c main_v42 (((cfg1.win 4).blk t).view.emb (ix2 r q))
    rw [h0]
  have e1 : iblk1 (F := Ideal) V c 1 t (ix2 r q) = h (((cfg1.win 4).blk t).view.emb (ix2 r q)) := by
    rw [← hh]
    show V c main_v29 (((cfg1.win 1).blk t).view.emb (ix2 r q)) = V c main_v29 (((cfg1.win 4).blk t).view.emb (ix2 r q))
    rw [h1]
  have e2 : iblk1 (F := Ideal) V c 2 t (ix2 r q) = d (((cfg1.win 4).blk t).view.emb (ix2 r q)) := by
    rw [← hd]
    show V c main_v13 (((cfg1.win 2).blk t).view.emb (ix2 r q)) = V c main_v13 (((cfg1.win 4).blk t).view.emb (ix2 r q))
    rw [h2]
  have e3 : iblk1 (F := Ideal) V c 3 t (ix2 (0 : Fin 1) q)
      = b (ix2 (0 : Fin 1) ((((cfg1.win 4).blk t).view.emb (ix2 r q)) 1)) := by
    rw [← hb]
    show V c main_v43 (((cfg1.win 3).blk t).view.emb (ix2 (0 : Fin 1) q))
      = V c main_v43 (ix2 (0 : Fin 1) ((((cfg1.win 4).blk t).view.emb (ix2 r q)) 1))
    rw [h3]
    rfl
  rw [e0, e1, e2, e3]

/-- An index of the output array lies in grid point t's block iff each coordinate lies in the block's range. -/
theorem comb1_mem_blk (t : Fin cfg1.N) (i : S150000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v44).slice (win1_4.rect t)).set ↔ _
  rw [View.set_slice_whole, Rect.mem_set_unit]
  exact Iff.rfl

/-- The fifteen blocks of 10000 rows tile the 150000 rows: row p lies in the block of grid point p / 10000. -/
theorem comb1_cover (i : S150000x64.Idx) :
    ∃ t : Fin cfg1.N, (cfg1.win 4).flush t = true ∧ i ∈ ((cfg1.win 4).blk t).view.set := by
  have hi0 : (i 0).val < 150000 := (i 0).isLt
  have hi1 : (i 1).val < 64 := (i 1).isLt
  have hN : grid1.N = 15 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, -, -, o0, o1⟩ := comb1_idx t
  refine ⟨t, flush1_4 t, ?_⟩
  rw [comb1_mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- Region 1 (pointwise on row blocks tiling the 150000 rows): after the region the output array holds, at row p
    and column q, max ((agg(p,q) + h(p,q) * d(p,q)) + b(0,q)) 0. -/
theorem comb1 (c : Dev nD) (agg h d : FVec Ideal S150000x64 .f32) (b : FVec Ideal S1x64 .f32)
    (hagg : V c main_v42 = agg) (hh : V c main_v29 = h) (hd : V c main_v13 = d) (hb : V c main_v43 = b) (p : Fin 150000) (q : Fin 64) :
    ((dat1 (F := Ideal) V c).arrAt 4 cfg1.N : FVec Ideal S150000x64 .f32) (ix2 p q)
      = max ((agg (ix2 p q) + h (ix2 p q) * d (ix2 p q)) + b (ix2 (0 : Fin 1) q)) (Ideal.ofBits .f32 0x00000000#32) := by
  have hfin : (dat1 (F := Ideal) V c).arrAt 4 cfg1.N = combG agg h d b :=
    (dat1 (F := Ideal) V c).arrAt_eq_of_cover 4 (combG agg h d b)
      (fun t _ => comb1_flushed V c agg h d b hagg hh hd hb t) comb1_cover
  exact congrFun hfin (ix2 p q)

/-! ## Region 3 -/

/-- The region's payload at row r and column q of a block: the three row blocks combined pointwise, the bias row
    repeated down the rows, then the maximum with the zero word. -/
theorem comb3_pay (x0 x1 x2 : FVec Ideal S10000x64 .f32) (x3 : FVec Ideal S1x64 .f32) (r : Fin 10000) (q : Fin 64) :
    k3_pay1 (F := Ideal) x0 x1 x2 x3 (ix2 r q)
      = max ((x0 (ix2 r q) + x1 (ix2 r q) * x2 (ix2 r q)) + x3 (ix2 (0 : Fin 1) q)) (Ideal.ofBits .f32 0x00000000#32) := by
  unfold k3_pay1
  simp only [shapeCast_self]
  show max ((x0 (ix2 r q) + x1 (ix2 r q) * x2 (ix2 r q)) + broadcastTo S10000x64 x3 _ (ix2 r q)) _ = _
  rw [broadcastTo_1b_ab_apply]
  rfl

/-- The block index of every window at every grid point: the three row-block inputs and the output sit at block
    (t, 0), the bias at block (0, 0). -/
theorem comb3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1000000 in
/-- What grid point t writes back is block t of the whole-array function. -/
theorem comb3_flushed (c : Dev nD) (agg h d : FVec Ideal S150000x64 .f32) (b : FVec Ideal S1x64 .f32)
    (hagg : V c main_v58 = agg) (hh : V c main_v45 = h) (hd : V c main_v13 = d) (hb : V c main_v59 = b) (t : Fin cfg3.N) :
    (dat3 (F := Ideal) V c).flushed 4 t = ((cfg3.win 4).blk t).view.read (Elt Ideal) (combG agg h d b) := by
  show (cfg3.win 4).cut (grid3.coords t) ((dat3 V c).after 4 t) = _
  rw [after3_4]
  unfold out3_4
  rw [View.canon_unit_zero comb_hz]
  simp only [View.ld_unit_zero (S := S10000x64) comb_hz, View.ld_unit_zero (S := S1x64) comb_hz]
  obtain ⟨a0, a1, b0, b1, c0, c1, d0, d1, o0, o1⟩ := comb3_idx t
  refine funext fun (j : S10000x64.Idx) => ?_
  obtain ⟨r, q, rfl⟩ : ∃ (r : Fin 10000) (q : Fin 64), j = ix2 r q := ⟨j 0, j 1, eq_ix2 j⟩
  have hr : r.val < 10000 := r.isLt
  have hq : q.val < 64 := q.isLt
  show k3_pay1 (F := Ideal) (iblk3 V c 0 t) (iblk3 V c 1 t) (iblk3 V c 2 t) (iblk3 V c 3 t) (ix2 r q)
      = combG agg h d b (((cfg3.win 4).blk t).view.emb (ix2 r q))
  refine (comb3_pay (iblk3 V c 0 t) (iblk3 V c 1 t) (iblk3 V c 2 t) (iblk3 V c 3 t) r q).trans ?_
  have h0 : ((cfg3.win 0).blk t).view.emb (ix2 r q) = ((cfg3.win 4).blk t).view.emb (ix2 r q) := by
    funext a; apply Fin.ext
    match a with
    | ⟨0, _⟩ => show win3_0.index t (0 : Fin 2) * 10000 + 1 * r.val = win3_4.index t (0 : Fin 2) * 10000 + 1 * r.val; omega
    | ⟨1, _⟩ => show win3_0.index t (1 : Fin 2) * 64 + 1 * q.val = win3_4.index t (1 : Fin 2) * 64 + 1 * q.val; omega
  have h1 : ((cfg3.win 1).blk t).view.emb (ix2 r q) = ((cfg3.win 4).blk t).view.emb (ix2 r q) := by
    funext a; apply Fin.ext
    match a with
    | ⟨0, _⟩ => show win3_1.index t (0 : Fin 2) * 10000 + 1 * r.val = win3_4.index t (0 : Fin 2) * 10000 + 1 * r.val; omega
    | ⟨1, _⟩ => show win3_1.index t (1 : Fin 2) * 64 + 1 * q.val = win3_4.index t (1 : Fin 2) * 64 + 1 * q.val; omega
  have h2 : ((cfg3.win 2).blk t).view.emb (ix2 r q) = ((cfg3.win 4).blk t).view.emb (ix2 r q) := by
    funext a; apply Fin.ext
    match a with
    | ⟨0, _⟩ => show win3_2.index t (0 : Fin 2) * 10000 + 1 * r.val = win3_4.index t (0 : Fin 2) * 10000 + 1 * r.val; omega
    | ⟨1, _⟩ => show win3_2.index t (1 : Fin 2) * 64 + 1 * q.val = win3_4.index t (1 : Fin 2) * 64 + 1 * q.val; omega
  have h3 : ((cfg3.win 3).blk t).view.emb (ix2 (0 : Fin 1) q)
      = ix2 (0 : Fin 1) ((((cfg3.win 4).blk t).view.emb (ix2 r q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  have e0 : iblk3 (F := Ideal) V c 0 t (ix2 r q) = agg (((cfg3.win 4).blk t).view.emb (ix2 r q)) := by
    rw [← hagg]
    show V c main_v58 (((cfg3.win 0).blk t).view.emb (ix2 r q)) = V c main_v58 (((cfg3.win 4).blk t).view.emb (ix2 r q))
    rw [h0]
  have e1 : iblk3 (F := Ideal) V c 1 t (ix2 r q) = h (((cfg3.win 4).blk t).view.emb (ix2 r q)) := by
    rw [← hh]
    show V c main_v45 (((cfg3.win 1).blk t).view.emb (ix2 r q)) = V c main_v45 (((cfg3.win 4).blk t).view.emb (ix2 r q))
    rw [h1]
  have e2 : iblk3 (F := Ideal) V c 2 t (ix2 r q) = d (((cfg3.win 4).blk t).view.emb (ix2 r q)) := by
    rw [← hd]
    show V c main_v13 (((cfg3.win 2).blk t).view.emb (ix2 r q)) = V c main_v13 (((cfg3.win 4).blk t).view.emb (ix2 r q))
    rw [h2]
  have e3 : iblk3 (F := Ideal) V c 3 t (ix2 (0 : Fin 1) q)
      = b (ix2 (0 : Fin 1) ((((cfg3.win 4).blk t).view.emb (ix2 r q)) 1)) := by
    rw [← hb]
    show V c main_v59 (((cfg3.win 3).blk t).view.emb (ix2 (0 : Fin 1) q))
      = V c main_v59 (ix2 (0 : Fin 1) ((((cfg3.win 4).blk t).view.emb (ix2 r q)) 1))
    rw [h3]
    rfl
  rw [e0, e1, e2, e3]

/-- An index of the output array lies in grid point t's block iff each coordinate lies in the block's range. -/
theorem comb3_mem_blk (t : Fin cfg3.N) (i : S150000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v60).slice (win3_4.rect t)).set ↔ _
  rw [View.set_slice_whole, Rect.mem_set_unit]
  exact Iff.rfl

/-- The fifteen blocks of 10000 rows tile the 150000 rows: row p lies in the block of grid point p / 10000. -/
theorem comb3_cover (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  have hN : grid3.N = 15 := N_3
  obtain ⟨t, ht⟩ : ∃ t : Fin cfg3.N, t.val = (i 0).val / 10000 :=
    ⟨⟨(i 0).val / 10000, by show (i 0).val / 10000 < grid3.N; rw [hN]; omega⟩, rfl⟩
  obtain ⟨-, -, -, -, -, -, -, -, o0, o1⟩ := comb3_idx t
  refine ⟨t, flush3_4 t, ?_⟩
  rw [comb3_mem_blk]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- Region 3 (pointwise on row blocks tiling the 150000 rows): after the region the output array holds, at row p
    and column q, max ((agg(p,q) + h(p,q) * d(p,q)) + b(0,q)) 0. -/
theorem comb3 (c : Dev nD) (agg h d : FVec Ideal S150000x64 .f32) (b : FVec Ideal S1x64 .f32)
    (hagg : V c main_v58 = agg) (hh : V c main_v45 = h) (hd : V c main_v13 = d) (hb : V c main_v59 = b) (p : Fin 150000) (q : Fin 64) :
    ((dat3 (F := Ideal) V c).arrAt 4 cfg3.N : FVec Ideal S150000x64 .f32) (ix2 p q)
      = max ((agg (ix2 p q) + h (ix2 p q) * d (ix2 p q)) + b (ix2 (0 : Fin 1) q)) (Ideal.ofBits .f32 0x00000000#32) := by
  have hfin : (dat3 (F := Ideal) V c).arrAt 4 cfg3.N = combG agg h d b :=
    (dat3 (F := Ideal) V c).arrAt_eq_of_cover 4 (combG agg h d b)
      (fun t _ => comb3_flushed V c agg h d b hagg hh hd hb t) comb3_cover
  exact congrFun hfin (ix2 p q)

/-! ## Region 5 -/

/-- The region's payload at row r and column q of a block: the three row blocks combined pointwise, the bias row
    repeated down the rows, then the maximum with the zero word. -/
theorem comb5_pay (x0 x1 x2 : FVec Ideal S10000x64 .f32) (x3 : FVec Ideal S1x64 .f32) (r : Fin 10000) (q : Fin 64) :
    k5_pay1 (F := Ideal) x0 x1 x2 x3 (ix2 r q)
      = max ((x0 (ix2 r q) + x1 (ix2 r q) * x2 (ix2 r q)) + x3 (ix2 (0 : Fin 1) q)) (Ideal.ofBits .f32 0x00000000#32) := by
  unfold k5_pay1
  simp only [shapeCast_self]
  show max ((x0 (ix2 r q) + x1 (ix2 r q) * x2 (ix2 r q)) + broadcastTo S10000x64 x3 _ (ix2 r q)) _ = _
  rw [broadcastTo_1b_ab_apply]
  rfl

/-- The block index of every window at every grid point: the three row-block inputs and the output sit at block
    (t, 0), the bias at block (0, 0). -/
theorem comb5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 1000000 in
/-- What grid point t writes back is block t of the whole-array function. -/
theorem comb5_flushed (c : Dev nD) (agg h d : FVec Ideal S150000x64 .f32) (b : FVec Ideal S1x64 .f32)
    (hagg : V c main_v74 = agg) (hh : V c main_v61 = h) (hd : V c main_v13 = d) (hb : V c main_v75 = b) (t : Fin cfg5.N) :
    (dat5 (F := Ideal) V c).flushed 4 t = ((cfg5.win 4).blk t).view.read (Elt Ideal) (combG agg h d b) := by
  show (cfg5.win 4).cut (grid5.coords t) ((dat5 V c).after 4 t) = _
  rw [after5_4]
  unfold out5_4
  rw [View.canon_unit_zero comb_hz]
  simp only [View.ld_unit_zero (S := S10000x64) comb_hz, View.ld_unit_zero (S := S1x64) comb_hz]
  obtain ⟨a0, a1, b0, b1, c0, c1, d0, d1, o0, o1⟩ := comb5_idx t
  refine funext fun (j : S10000x64.Idx) => ?_
  obtain ⟨r, q, rfl⟩ : ∃ (r : Fin 10000) (q : Fin 64), j = ix2 r q := ⟨j 0, j 1, eq_ix2 j⟩
  have hr : r.val < 10000 := r.isLt
  have hq : q.val < 64 := q.isLt
  show k5_pay1 (F := Ideal) (iblk5 V c 0 t) (iblk5 V c 1 t) (iblk5 V c 2 t) (iblk5 V c 3 t) (ix2 r q)
      = combG agg h d b (((cfg5.win 4).blk t).view.emb (ix2 r q))
  refine (comb5_pay (iblk5 V c 0 t) (iblk5 V c 1 t) (iblk5 V c 2 t) (iblk5 V c 3 t) r q).trans ?_
  have h0 : ((cfg5.win 0).blk t).view.emb (ix2 r q) = ((cfg5.win 4).blk t).view.emb (ix2 r q) := by
    funext a; apply Fin.ext
    match a with
    | ⟨0, _⟩ => show win5_0.index t (0 : Fin 2) * 10000 + 1 * r.val = win5_4.index t (0 : Fin 2) * 10000 + 1 * r.val; omega
    | ⟨1, _⟩ => show win5_0.index t (1 : Fin 2) * 64 + 1 * q.val = win5_4.index t (1 : Fin 2) * 64 + 1 * q.val; omega
  have h1 : ((cfg5.win 1).blk t).view.emb (ix2 r q) = ((cfg5.win 4).blk t).view.emb (ix2 r q) := by
    funext a; apply Fin.ext
    match a with
    | ⟨0, _⟩ => show win5_1.index t (0 : Fin 2) * 10000 + 1 * r.val = win5_4.index t (0 : Fin 2) * 10000 + 1 * r.val; omega
    | ⟨1, _⟩ => show win5_1.index t (1 : Fin 2) * 64 + 1 * q.val = win5_4.index t (1 : Fin 2) * 64 + 1 * q.val; omega
  have h2 : ((cfg5.win 2).blk t).view.emb (ix2 r q) = ((cfg5.win 4).blk t).view.emb (ix2 r q) := by
    funext a; apply Fin.ext
    match a with
    | ⟨0, _⟩ => show win5_2.index t (0 : Fin 2) * 10000 + 1 * r.val = win5_4.index t (0 : Fin 2) * 10000 + 1 * r.val; omega
    | ⟨1, _⟩ => show win5_2.index t (1 : Fin 2) * 64 + 1 * q.val = win5_4.index t (1 : Fin 2) * 64 + 1 * q.val; omega
  have h3 : ((cfg5.win 3).blk t).view.emb (ix2 (0 : Fin 1) q)
      = ix2 (0 : Fin 1) ((((cfg5.win 4).blk t).view.emb (ix2 r q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega
  have e0 : iblk5 (F := Ideal) V c 0 t (ix2 r q) = agg (((cfg5.win 4).blk t).view.emb (ix2 r q)) := by
    rw [← hagg]
    show V c main_v74 (((cfg5.win 0).blk t).view.emb (ix2 r q)) = V c main_v74 (((cfg5.win 4).blk t).view.emb (ix2 r q))
    rw [h0]
  have e1 : iblk5 (F := Ideal) V c 1 t (ix2 r q) = h (((cfg5.win 4).blk t).view.emb (ix2 r q)) := by
    rw [← hh]
    show V c main_v61 (((cfg5.win 1).blk t).view.emb (ix2 r q)) = V c main_v61 (((cfg5.win 4).blk t).view.emb (ix2 r q))
    rw [h1]
  have e2 : iblk5 (F := Ideal) V c 2 t (ix2 r q) = d (((cfg5.win 4).blk t).view.emb (ix2 r q)) := by
    rw [← hd]
    show V c main_v13 (((cfg5.win 2).blk t).view.emb (ix2 r q)) = V c main_v13 (((cfg5.win 4).blk t).view.emb (ix2 r q))
    rw [h2]
  have e3 : iblk5 (F := Ideal) V c 3 t (ix2 (0 : Fin 1) q)
      = b (ix2 (0 : Fin 1) ((((cfg5.win 4).blk t).view.emb (ix2 r q)) 1)) := by
    rw [← hb]
    show V c main_v75 (((cfg5.win 3).blk t).view.emb (ix2 (0 : Fin 1) q))
      = V c main_v75 (ix2 (0 : Fin 1) ((((cfg5.win 4).blk t).view.emb (ix2 r q)) 1))
    rw [h3]
    rfl
  rw [e0, e1, e2, e3]

/-- An index of the output array lies in grid point t's block iff each coordinate lies in the block's range. -/
theorem comb5_mem_blk (t : Fin cfg5.N) (i : S150000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v76).slice (win5_4.rect t)).set ↔ _
  rw [View.set_slice_whole, Rect.mem_set_unit]
  exact Iff.rfl

/-- The fifteen blocks of 10000 rows tile the 150000 rows: row p lies in the block of grid point p / 10000. -/
theorem comb5_cover (i : S150000x64.Idx) :
    ∃ t : Fin cfg5.N, (cfg5.win 4).flush t = true ∧ i ∈ ((cfg5.win 4).blk t).view.set := by
  have hi0 : (i 0).val < 150000 := (i 0).isLt
  have hi1 : (i 1).val < 64 := (i 1).isLt
  have hN : grid5.N = 15 := N_5
  obtain ⟨t, ht⟩ : ∃ t : Fin cfg5.N, t.val = (i 0).val / 10000 :=
    ⟨⟨(i 0).val / 10000, by show (i 0).val / 10000 < grid5.N; rw [hN]; omega⟩, rfl⟩
  obtain ⟨-, -, -, -, -, -, -, -, o0, o1⟩ := comb5_idx t
  refine ⟨t, flush5_4 t, ?_⟩
  rw [comb5_mem_blk]
  intro a
  match a with
  | ⟨0, _⟩ =>
    show win5_4.index t (0 : Fin 2) * 10000 ≤ (i 0).val ∧ (i 0).val < win5_4.index t (0 : Fin 2) * 10000 + 10000
    omega
  | ⟨1, _⟩ =>
    show win5_4.index t (1 : Fin 2) * 64 ≤ (i 1).val ∧ (i 1).val < win5_4.index t (1 : Fin 2) * 64 + 64
    omega

/-- Region 5 (pointwise on row blocks tiling the 150000 rows): after the region the output array holds, at row p
    and column q, max ((agg(p,q) + h(p,q) * d(p,q)) + b(0,q)) 0. -/
theorem comb5 (c : Dev nD) (agg h d : FVec Ideal S150000x64 .f32) (b : FVec Ideal S1x64 .f32)
    (hagg : V c main_v74 = agg) (hh : V c main_v61 = h) (hd : V c main_v13 = d) (hb : V c main_v75 = b) (p : Fin 150000) (q : Fin 64) :
    ((dat5 (F := Ideal) V c).arrAt 4 cfg5.N : FVec Ideal S150000x64 .f32) (ix2 p q)
      = max ((agg (ix2 p q) + h (ix2 p q) * d (ix2 p q)) + b (ix2 (0 : Fin 1) q)) (Ideal.ofBits .f32 0x00000000#32) := by
  have hfin : (dat5 (F := Ideal) V c).arrAt 4 cfg5.N = combG agg h d b :=
    (dat5 (F := Ideal) V c).arrAt_eq_of_cover 4 (combG agg h d b)
      (fun t _ => comb5_flushed V c agg h d b hagg hh hd hb t) comb5_cover
  exact congrFun hfin (ix2 p q)

end Cert.KernelIdeal.RegVal

end
-- ==== Proof.RefRead.lean ====
import proofs.«147156_j31190052504456_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Read Idealize.ShloMosaic Idealize.ShloMosaic.TcCoe Idealize.SL.Sem
open Idealize.ShloMosaic.ValueIdx
open scoped BigOperators

variable (x0 : (⟨S150000x2, .f32⟩ : BufTy).Contents (Elt Ideal)) (x1 : (⟨S2x1250000, .i32⟩ : BufTy).Contents (Elt Ideal)) (x2 : (⟨S150000, .i32⟩ : BufTy).Contents (Elt Ideal)) (x3 : (⟨S2x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal))

/-! Index equations: the composed index functions of the generated reading lemmas, at explicit coordinates. -/

/-- Left index of a row-by-column product at (p, q), contraction position k: (p, k). -/
theorem lidx11 (p : Fin 150000) (q : Fin 64) (k : Fin 2) : lidx_main_v11 (ix2 p q) k = ix2 p k :=
  funext fun a => Fin.ext (by match a with | ⟨0, _⟩ => rfl | ⟨1, _⟩ => rfl)
/-- Right index of a row-by-column product at (p, q), contraction position k: (k, q). -/
theorem ridx11 (p : Fin 150000) (q : Fin 64) (k : Fin 2) : ridx_main_v11 (ix2 p q) k = ix2 k q :=
  funext fun a => Fin.ext (by match a with | ⟨0, _⟩ => rfl | ⟨1, _⟩ => rfl)
theorem lidx49 (p : Fin 150000) (q : Fin 64) (k : Fin 64) : lidx_main_v49 (ix2 p q) k = ix2 p k :=
  funext fun a => Fin.ext (by match a with | ⟨0, _⟩ => rfl | ⟨1, _⟩ => rfl)
theorem ridx49 (p : Fin 150000) (q : Fin 64) (k : Fin 64) : ridx_main_v49 (ix2 p q) k = ix2 k q :=
  funext fun a => Fin.ext (by match a with | ⟨0, _⟩ => rfl | ⟨1, _⟩ => rfl)
theorem lidx87 (p : Fin 150000) (q : Fin 64) (k : Fin 64) : lidx_main_v87 (ix2 p q) k = ix2 p k :=
  funext fun a => Fin.ext (by match a with | ⟨0, _⟩ => rfl | ⟨1, _⟩ => rfl)
theorem ridx87 (p : Fin 150000) (q : Fin 64) (k : Fin 64) : ridx_main_v87 (ix2 p q) k = ix2 k q :=
  funext fun a => Fin.ext (by match a with | ⟨0, _⟩ => rfl | ⟨1, _⟩ => rfl)
theorem lidx137 (p : Fin 4096) (j : Fin 32) (k : Fin 64) : lidx_main_v137 (ix2 p j) k = ix2 p k :=
  funext fun a => Fin.ext (by match a with | ⟨0, _⟩ => rfl | ⟨1, _⟩ => rfl)
theorem ridx137 (p : Fin 4096) (j : Fin 32) (k : Fin 64) : ridx_main_v137 (ix2 p j) k = ix2 k j :=
  funext fun a => Fin.ext (by match a with | ⟨0, _⟩ => rfl | ⟨1, _⟩ => rfl)
theorem lidx142 (p : Fin 4096) (j : Fin 32) : lidx_main_v142 (ix2 p (0 : Fin 1)) j = ix2 p j :=
  funext fun a => Fin.ext (by match a with | ⟨0, _⟩ => rfl | ⟨1, _⟩ => rfl)
theorem ridx142 (p : Fin 4096) (j : Fin 32) : ridx_main_v142 (ix2 p (0 : Fin 1)) j = ix2 j (0 : Fin 1) :=
  funext fun a => Fin.ext (by match a with | ⟨0, _⟩ => rfl | ⟨1, _⟩ => rfl)
/-- A [64] vector broadcast through [1,64] to [150000,64] is read at (p, q) at position q. -/
theorem bidx46 (p : Fin 150000) (q : Fin 64) : idx_main_v45 (idx_main_v46 (ix2 p q)) = ix1 q :=
  funext fun a => Fin.ext (by match a with | ⟨0, _⟩ => rfl)
theorem bidx84 (p : Fin 150000) (q : Fin 64) : idx_main_v83 (idx_main_v84 (ix2 p q)) = ix1 q :=
  funext fun a => Fin.ext (by match a with | ⟨0, _⟩ => rfl)
theorem bidx122 (p : Fin 150000) (q : Fin 64) : idx_main_v121 (idx_main_v122 (ix2 p q)) = ix1 q :=
  funext fun a => Fin.ext (by match a with | ⟨0, _⟩ => rfl)
theorem bidx139 (p : Fin 4096) (j : Fin 32) : idx_main_v138 (idx_main_v139 (ix2 p j)) = ix1 j :=
  funext fun a => Fin.ext (by match a with | ⟨0, _⟩ => rfl)
theorem bidx144 (p : Fin 4096) : idx_main_v143 (idx_main_v144 (ix2 p (0 : Fin 1))) = ix1 (0 : Fin 1) :=
  funext fun a => Fin.ext (by match a with | ⟨0, _⟩ => rfl)

/-- The reference's product read at row p, column q: the sum over k of left(p,k) * right(k,q). -/
theorem h1_apply (p : Fin 150000) (q : Fin 64) :
    val_main_v11 (F := Ideal) x0 x3 (ix2 p q) = ∑ k : Fin 2, x0 (ix2 p k) * x3 (ix2 k q) := by
  rw [val_main_v11_apply]
  exact Finset.sum_congr rfl fun k _ => by rw [lidx11, ridx11]

/-- The reference's product read at row p, column q: the sum over k of left(p,k) * right(k,q). -/
theorem h2_apply (p : Fin 150000) (q : Fin 64) :
    val_main_v49 (F := Ideal) x0 x1 x3 x4 x5 (ix2 p q) = ∑ k : Fin 64, (val_main_v48 (F := Ideal) x0 x1 x3 x4) (ix2 p k) * x5 (ix2 k q) := by
  rw [val_main_v49_apply]
  exact Finset.sum_congr rfl fun k _ => by rw [lidx49, ridx49]

/-- The reference's product read at row p, column q: the sum over k of left(p,k) * right(k,q). -/
theorem h3_apply (p : Fin 150000) (q : Fin 64) :
    val_main_v87 (F := Ideal) x0 x1 x3 x4 x5 x6 x7 (ix2 p q) = ∑ k : Fin 64, (val_main_v86 (F := Ideal) x0 x1 x3 x4 x5 x6) (ix2 p k) * x7 (ix2 k q) := by
  rw [val_main_v87_apply]
  exact Finset.sum_congr rfl fun k _ => by rw [lidx87, ridx87]

/-- The reference's layer output read at row p, column q: max ((agg(p,q) + h(p,q) * d(p,q)) + b(q)) 0. -/
theorem relu1_apply (p : Fin 150000) (q : Fin 64) :
    val_main_v48 (F := Ideal) x0 x1 x3 x4 (ix2 p q)
      = max ((val_main_v39 (F := Ideal) x0 x1 x3 (ix2 p q) + val_main_v11 (F := Ideal) x0 x3 (ix2 p q) * val_main_v42 (F := Ideal) x1 (ix2 p q)) + x4 (ix1 q)) (Ideal.ofBits .f32 0x00000000#32) := by
  rw [val_main_v48_apply, val_main_v47_apply, val_main_v44_apply, val_main_v43_apply, val_main_v46_apply, val_main_v45_apply,
    val_main_call0_v0_apply, val_main_call0_cst_apply, bidx46]
  rfl

/-- The reference's layer output read at row p, column q: max ((agg(p,q) + h(p,q) * d(p,q)) + b(q)) 0. -/
theorem relu2_apply (p : Fin 150000) (q : Fin 64) :
    val_main_v86 (F := Ideal) x0 x1 x3 x4 x5 x6 (ix2 p q)
      = max ((val_main_v77 (F := Ideal) x0 x1 x3 x4 x5 (ix2 p q) + val_main_v49 (F := Ideal) x0 x1 x3 x4 x5 (ix2 p q) * val_main_v80 (F := Ideal) x1 (ix2 p q)) + x6 (ix1 q)) (Ideal.ofBits .f32 0x00000000#32) := by
  rw [val_main_v86_apply, val_main_v85_apply, val_main_v82_apply, val_main_v81_apply, val_main_v84_apply, val_main_v83_apply,
    val_main_call1_v0_apply, val_main_call1_cst_apply, bidx84]
  rfl

/-- The reference's layer output read at row p, column q: max ((agg(p,q) + h(p,q) * d(p,q)) + b(q)) 0. -/
theorem relu3_apply (p : Fin 150000) (q : Fin 64) :
    val_main_v124 (F := Ideal) x0 x1 x3 x4 x5 x6 x7 x8 (ix2 p q)
      = max ((val_main_v115 (F := Ideal) x0 x1 x3 x4 x5 x6 x7 (ix2 p q) + val_main_v87 (F := Ideal) x0 x1 x3 x4 x5 x6 x7 (ix2 p q) * val_main_v118 (F := Ideal) x1 (ix2 p q)) + x8 (ix1 q)) (Ideal.ofBits .f32 0x00000000#32) := by
  rw [val_main_v124_apply, val_main_v123_apply, val_main_v120_apply, val_main_v119_apply, val_main_v122_apply, val_main_v121_apply,
    val_main_call2_v0_apply, val_main_call2_cst_apply, bidx122]
  rfl

/-- The hidden layer of the head read at row p, column j: max ((sum_k pooled(p,k) * lw1(k,j)) + lb1(j)) 0. -/
theorem hidden_apply (p : Fin 4096) (j : Fin 32) :
    val_main_v141 (F := Ideal) x0 x1 x2 x3 x4 x5 x6 x7 x8 x9 x10 (ix2 p j)
      = max ((∑ k : Fin 64, val_main_v136 (F := Ideal) x0 x1 x2 x3 x4 x5 x6 x7 x8 (ix2 p k) * x9 (ix2 k j)) + x10 (ix1 j)) (Ideal.ofBits .f32 0x00000000#32) := by
  have hs : val_main_v137 (F := Ideal) x0 x1 x2 x3 x4 x5 x6 x7 x8 x9 (ix2 p j)
      = ∑ k : Fin 64, val_main_v136 (F := Ideal) x0 x1 x2 x3 x4 x5 x6 x7 x8 (ix2 p k) * x9 (ix2 k j) := by
    rw [val_main_v137_apply]
    exact Finset.sum_congr rfl fun k _ => by rw [lidx137, ridx137]
  rw [val_main_v141_apply, val_main_v140_apply, hs, val_main_v139_apply, val_main_v138_apply,
    val_main_call3_v0_apply, val_main_call3_cst_apply, bidx139]
  rfl

/-- The reference's result read at row p: 1 / (1 + exp (-(z2(p)))) with z1(p,j) = max ((sum_k pooled(p,k) * lw1(k,j)) + lb1(j)) 0
    and z2(p) = (sum_j z1(p,j) * lw2(j,0)) + lb2(0). -/
theorem head_apply (p : Fin 4096) :
    val_main_v151 (F := Ideal) x0 x1 x2 x3 x4 x5 x6 x7 x8 x9 x10 x11 x12 (ix2 p (0 : Fin 1))
      = Ideal.div (Ideal.ofBits .f32 0x3F800000#32)
          ((Ideal.ofBits .f32 0x3F800000#32) + Ideal.exp (-((∑ j : Fin 32, max ((∑ k : Fin 64, val_main_v136 (F := Ideal) x0 x1 x2 x3 x4 x5 x6 x7 x8 (ix2 p k) * x9 (ix2 k j)) + x10 (ix1 j)) (Ideal.ofBits .f32 0x00000000#32)
                * x11 (ix2 j (0 : Fin 1))) + x12 (ix1 (0 : Fin 1))))) := by
  have hs : val_main_v142 (F := Ideal) x0 x1 x2 x3 x4 x5 x6 x7 x8 x9 x10 x11 (ix2 p (0 : Fin 1))
      = ∑ j : Fin 32, max ((∑ k : Fin 64, val_main_v136 (F := Ideal) x0 x1 x2 x3 x4 x5 x6 x7 x8 (ix2 p k) * x9 (ix2 k j)) + x10 (ix1 j)) (Ideal.ofBits .f32 0x00000000#32)
                * x11 (ix2 j (0 : Fin 1)) := by
    rw [val_main_v142_apply]
    exact Finset.sum_congr rfl fun j _ => by rw [lidx142, ridx142, hidden_apply]
  rw [val_main_v151_apply, val_main_v150_apply, val_main_cst_27_apply, val_main_v149_apply, val_main_v148_apply, val_main_cst_26_apply,
    val_main_v147_apply, val_main_v146_apply, val_main_v145_apply, hs, val_main_v144_apply, val_main_v143_apply, bidx144]
  simp only [Ideal.hostDivf_def, Ideal.addf_def, Ideal.ofBits_def, Ideal.hostUnary_exp_def, Ideal.hostNegf_def, Ideal.negf_def]

end Cert.ReferenceIdeal.RefRead

end
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.Stage2.lean ====
import proofs.«147156_j31190052504456_1_alg».proof.Proof.Gen.KernelIdeal.Frame
import proofs.«147156_j31190052504456_1_alg».proof.Proof.Gen.ReferenceIdeal.Read
import proofs.«147156_j31190052504456_1_alg».proof.Proof.Stage1
import proofs.«147156_j31190052504456_1_alg».proof.Proof.RegLin
import proofs.«147156_j31190052504456_1_alg».proof.Proof.RegComb
import proofs.«147156_j31190052504456_1_alg».proof.Proof.RefRead
import proofs.«147156_j31190052504456_1_alg».proof.Proof.LibRow
import Idealize.ShloMosaic.Lib.Pipeline.Value
import Idealize.ShloMosaic.Lib.ValueIdx
import Idealize.ShloMosaic.Lib.StableHlo.Run

set_option maxRecDepth 16384
set_option maxHeartbeats 1600000

noncomputable section

namespace Cert.KernelIdeal.Chain

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

open Cert.ReferenceIdeal.Read (val_main_v1 val_main_v3 val_main_v10 val_main_v11 val_main_v26 val_main_v39 val_main_v42 val_main_v48 val_main_v49 val_main_v64 val_main_v77 val_main_v80 val_main_v86 val_main_v87 val_main_v102 val_main_v115 val_main_v118 val_main_v124 val_main_v136 val_main_v151)
set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)

/-! The first layer: region 0 multiplies the node features by the first weight matrix, the second host stretch gathers
that product along the edges, scales it by the edge coefficients and sums it into the target nodes, region 1 adds the
self term and the bias and clamps at zero, region 2 multiplies by the second weight matrix. Each buffer ends at the
value the reference program computes for it. -/

/-- Entry (0, q) of a length-64 vector cast to a row is the vector's entry q. -/
theorem bias64 (x : FVec Ideal S64 .f32) (q : Fin 64) :
    (shapeCast S1x64 x shapeCasts_S64_S1x64 : FVec Ideal S1x64 .f32) (ix2 (0 : Fin 1) q) = x (ix1 q) :=
  (Cert.LibRow.shapeCast_row_apply (b := 64) x shapeCasts_S64_S1x64 (ix2 (0 : Fin 1) q)).trans
    (congrArg x (funext fun a => by match a with | ⟨0, _⟩ => rfl))

/-- The squared inverse square roots spread over the features are one array in all three layers of the reference. -/
theorem d2_eq2 : val_main_v80 (F := Ideal) X1 = val_main_v42 (F := Ideal) X1 := rfl
theorem d2_eq3 : val_main_v118 (F := Ideal) X1 = val_main_v42 (F := Ideal) X1 := rfl

theorem arg0_W1 : W1 m ρ c (Proc.devRef .tc main_arg0) = X0 := (Keep.k1 m ρ c main_arg0 (by host_keep))
theorem arg3_W1 : W1 m ρ c (Proc.devRef .tc main_arg3) = X3 := (Keep.k1 m ρ c main_arg3 (by host_keep))

/-- Region 0 leaves the product of the node features and the first weight matrix. -/
theorem v29_W2 : W2 m ρ c (Proc.devRef .tc main_v29) = val_main_v11 (F := Ideal) X0 X3 := by
  refine (W2_arr m ρ c 2).trans ?_
  funext i
  obtain ⟨p, q, rfl⟩ : ∃ (p : Fin 150000) (q : Fin 64), i = ix2 p q := ⟨i 0, i 1, eq_ix2 i⟩
  exact (RegVal.lin0 (V1 m ρ) c X0 X3 (arg0_W1 m ρ c) (arg3_W1 m ρ c) p q).trans (Cert.ReferenceIdeal.RefRead.h1_apply X0 X3 p q).symm

theorem v1_W2 : W2 m ρ c (Proc.devRef .tc main_v1) = val_main_v1 (F := Ideal) X1 := ((Keep.k2 m ρ c main_v1 (by decide)).trans (v1_W1 m ρ c))
theorem v3_W2 : W2 m ρ c (Proc.devRef .tc main_v3) = val_main_v3 (F := Ideal) X1 := ((Keep.k2 m ρ c main_v3 (by decide)).trans (v3_W1 m ρ c))
theorem v28_W2 : W2 m ρ c (Proc.devRef .tc main_v28) = val_main_v26 (F := Ideal) X1 := ((Keep.k2 m ρ c main_v28 (by decide)).trans (v28_W1 m ρ c))
theorem arg4_W2 : W2 m ρ c (Proc.devRef .tc main_arg4) = X4 := ((Keep.k2 m ρ c main_arg4 (by decide)).trans (Keep.k1 m ρ c main_arg4 (by host_keep)))

/-- The second host stretch leaves the first layer's sum over incoming edges. -/
theorem v42_W3 : W3 m ρ c (Proc.devRef .tc main_v42) = val_main_v39 (F := Ideal) X0 X1 X3 := by
  show StableHlo.after hostOps1 _ (Proc.devRef .tc main_v42) = _
  after_results_simp
  rw [v29_W2 m ρ c, v1_W2 m ρ c, v3_W2 m ρ c, v28_W2 m ρ c]
  rfl

/-- … and the first bias as a row. -/
theorem v43_W3 : W3 m ρ c (Proc.devRef .tc main_v43) = (shapeCast S1x64 X4 shapeCasts_S64_S1x64 : FVec Ideal S1x64 .f32) := by
  show StableHlo.after hostOps1 _ (Proc.devRef .tc main_v43) = _
  after_results_simp
  rw [arg4_W2 m ρ c]
  rfl

theorem v29_W3 : W3 m ρ c (Proc.devRef .tc main_v29) = val_main_v11 (F := Ideal) X0 X3 := ((Keep.k3 m ρ c main_v29 (by host_keep)).trans (v29_W2 m ρ c))
theorem v13_W3 : W3 m ρ c (Proc.devRef .tc main_v13) = val_main_v42 (F := Ideal) X1 := ((Keep.k3 m ρ c main_v13 (by host_keep)).trans ((Keep.k2 m ρ c main_v13 (by decide)).trans (v13_W1 m ρ c)))

/-- Region 1 leaves the first layer's output. -/
theorem v44_W4 : W4 m ρ c (Proc.devRef .tc main_v44) = val_main_v48 (F := Ideal) X0 X1 X3 X4 := by
  refine (W4_arr m ρ c 4).trans ?_
  funext i
  obtain ⟨p, q, rfl⟩ : ∃ (p : Fin 150000) (q : Fin 64), i = ix2 p q := ⟨i 0, i 1, eq_ix2 i⟩
  refine (RegVal.comb1 (V3 m ρ) c _ _ _ _ (v42_W3 m ρ c) (v29_W3 m ρ c) (v13_W3 m ρ c) (v43_W3 m ρ c) p q).trans ?_
  rw [Cert.ReferenceIdeal.RefRead.relu1_apply X0 X1 X3 X4 p q, bias64]

theorem arg5_W4 : W4 m ρ c (Proc.devRef .tc main_arg5) = X5 := ((Keep.k4 m ρ c main_arg5 (by decide)).trans ((Keep.k3 m ρ c main_arg5 (by host_keep)).trans ((Keep.k2 m ρ c main_arg5 (by decide)).trans (Keep.k1 m ρ c main_arg5 (by host_keep)))))

/-- Region 2 leaves the product of the first layer's output and the second weight matrix. -/
theorem v45_W5 : W5 m ρ c (Proc.devRef .tc main_v45) = val_main_v49 (F := Ideal) X0 X1 X3 X4 X5 := by
  refine (W5_arr m ρ c 2).trans ?_
  funext i
  obtain ⟨p, q, rfl⟩ : ∃ (p : Fin 150000) (q : Fin 64), i = ix2 p q := ⟨i 0, i 1, eq_ix2 i⟩
  exact (RegVal.lin2 (V4 m ρ) c _ X5 (v44_W4 m ρ c) (arg5_W4 m ρ c) p q).trans (Cert.ReferenceIdeal.RefRead.h2_apply X0 X1 X3 X4 X5 p q).symm

theorem v1_W5 : W5 m ρ c (Proc.devRef .tc main_v1) = val_main_v1 (F := Ideal) X1 := ((Keep.k5 m ρ c main_v1 (by decide)).trans ((Keep.k4 m ρ c main_v1 (by decide)).trans ((Keep.k3 m ρ c main_v1 (by host_keep)).trans (v1_W2 m ρ c))))
theorem v3_W5 : W5 m ρ c (Proc.devRef .tc main_v3) = val_main_v3 (F := Ideal) X1 := ((Keep.k5 m ρ c main_v3 (by decide)).trans ((Keep.k4 m ρ c main_v3 (by decide)).trans ((Keep.k3 m ρ c main_v3 (by host_keep)).trans (v3_W2 m ρ c))))
theorem v28_W5 : W5 m ρ c (Proc.devRef .tc main_v28) = val_main_v26 (F := Ideal) X1 := ((Keep.k5 m ρ c main_v28 (by decide)).trans ((Keep.k4 m ρ c main_v28 (by decide)).trans ((Keep.k3 m ρ c main_v28 (by host_keep)).trans (v28_W2 m ρ c))))
/-- The spread squares are an input of region 1 (and of region 3), which leaves its inputs as it found them. -/
theorem v13_in4 : W4 m ρ c (Proc.devRef .tc main_v13) = W3 m ρ c (Proc.devRef .tc main_v13) :=
  (W4_arr m ρ c 2).trans (((dat1 (V3 m ρ) c).arrAt_in 2 rfl _).trans (A_eq1 (V3 m ρ) c 2))
theorem v13_in7 : W7 m ρ c (Proc.devRef .tc main_v13) = W6 m ρ c (Proc.devRef .tc main_v13) :=
  (W7_arr m ρ c 2).trans (((dat3 (V6 m ρ) c).arrAt_in 2 rfl _).trans (A_eq3 (V6 m ρ) c 2))
theorem v13_W5 : W5 m ρ c (Proc.devRef .tc main_v13) = val_main_v42 (F := Ideal) X1 := ((Keep.k5 m ρ c main_v13 (by decide)).trans ((v13_in4 m ρ c).trans (v13_W3 m ρ c)))

end Cert.KernelIdeal.Chain

end
-- ==== Proof.Stage3.lean ====
import proofs.«147156_j31190052504456_1_alg».proof.Proof.Gen.KernelIdeal.Frame
import proofs.«147156_j31190052504456_1_alg».proof.Proof.Gen.ReferenceIdeal.Read
import proofs.«147156_j31190052504456_1_alg».proof.Proof.Stage2
import Idealize.ShloMosaic.Lib.Pipeline.Value
import Idealize.ShloMosaic.Lib.ValueIdx
import Idealize.ShloMosaic.Lib.StableHlo.Run

set_option maxRecDepth 16384
set_option maxHeartbeats 1600000

noncomputable section

namespace Cert.KernelIdeal.Chain

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

open Cert.ReferenceIdeal.Read (val_main_v1 val_main_v3 val_main_v10 val_main_v11 val_main_v26 val_main_v39 val_main_v42 val_main_v48 val_main_v49 val_main_v64 val_main_v77 val_main_v80 val_main_v86 val_main_v87 val_main_v102 val_main_v115 val_main_v118 val_main_v124 val_main_v136 val_main_v151)
set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)

/-! The second layer, buffer by buffer, as in the first: each ends at the value the reference program computes. -/

/-- The host stretch of layer 2 leaves the layer's sum over incoming edges. -/
theorem v58_W6 : W6 m ρ c (Proc.devRef .tc main_v58) = val_main_v77 (F := Ideal) X0 X1 X3 X4 X5 := by
  show StableHlo.after hostOps3 _ (Proc.devRef .tc main_v58) = _
  after_results_simp
  rw [v45_W5 m ρ c, v1_W5 m ρ c, v3_W5 m ρ c, v28_W5 m ρ c]
  rfl

theorem arg6_W5 : W5 m ρ c (Proc.devRef .tc main_arg6) = X6 := ((Keep.k5 m ρ c main_arg6 (by decide)).trans ((Keep.k4 m ρ c main_arg6 (by decide)).trans ((Keep.k3 m ρ c main_arg6 (by host_keep)).trans ((Keep.k2 m ρ c main_arg6 (by decide)).trans (Keep.k1 m ρ c main_arg6 (by host_keep))))))

/-- … and the layer's bias as a row. -/
theorem v59_W6 : W6 m ρ c (Proc.devRef .tc main_v59) = (shapeCast S1x64 X6 shapeCasts_S64_S1x64 : FVec Ideal S1x64 .f32) := by
  show StableHlo.after hostOps3 _ (Proc.devRef .tc main_v59) = _
  after_results_simp
  rw [arg6_W5 m ρ c]
  rfl

theorem v45_W6 : W6 m ρ c (Proc.devRef .tc main_v45) = val_main_v49 (F := Ideal) X0 X1 X3 X4 X5 := ((Keep.k6 m ρ c main_v45 (by host_keep)).trans (v45_W5 m ρ c))
theorem v13_W6 : W6 m ρ c (Proc.devRef .tc main_v13) = val_main_v80 (F := Ideal) X1 := ((Keep.k6 m ρ c main_v13 (by host_keep)).trans ((v13_W5 m ρ c).trans (d2_eq2 m c).symm))

/-- The pointwise region of layer 2 leaves the layer's output. -/
theorem v60_W7 : W7 m ρ c (Proc.devRef .tc main_v60) = val_main_v86 (F := Ideal) X0 X1 X3 X4 X5 X6 := by
  refine (W7_arr m ρ c 4).trans ?_
  funext i
  obtain ⟨p, q, rfl⟩ : ∃ (p : Fin 150000) (q : Fin 64), i = ix2 p q := ⟨i 0, i 1, eq_ix2 i⟩
  refine (RegVal.comb3 (V6 m ρ) c _ _ _ _ (v58_W6 m ρ c) (v45_W6 m ρ c) (v13_W6 m ρ c) (v59_W6 m ρ c) p q).trans ?_
  rw [Cert.ReferenceIdeal.RefRead.relu2_apply X0 X1 X3 X4 X5 X6 p q, bias64]

theorem arg7_W7 : W7 m ρ c (Proc.devRef .tc main_arg7) = X7 := ((Keep.k7 m ρ c main_arg7 (by decide)).trans ((Keep.k6 m ρ c main_arg7 (by host_keep)).trans ((Keep.k5 m ρ c main_arg7 (by decide)).trans ((Keep.k4 m ρ c main_arg7 (by decide)).trans ((Keep.k3 m ρ c main_arg7 (by host_keep)).trans ((Keep.k2 m ρ c main_arg7 (by decide)).trans (Keep.k1 m ρ c main_arg7 (by host_keep))))))))

/-- The product region after layer 2 leaves the layer's output times the next weight matrix. -/
theorem v61_W8 : W8 m ρ c (Proc.devRef .tc main_v61) = val_main_v87 (F := Ideal) X0 X1 X3 X4 X5 X6 X7 := by
  refine (W8_arr m ρ c 2).trans ?_
  funext i
  obtain ⟨p, q, rfl⟩ : ∃ (p : Fin 150000) (q : Fin 64), i = ix2 p q := ⟨i 0, i 1, eq_ix2 i⟩
  exact (RegVal.lin4 (V7 m ρ) c _ X7 (v60_W7 m ρ c) (arg7_W7 m ρ c) p q).trans (Cert.ReferenceIdeal.RefRead.h3_apply X0 X1 X3 X4 X5 X6 X7 p q).symm

theorem v1_W8 : W8 m ρ c (Proc.devRef .tc main_v1) = val_main_v1 (F := Ideal) X1 := ((Keep.k8 m ρ c main_v1 (by decide)).trans ((Keep.k7 m ρ c main_v1 (by decide)).trans ((Keep.k6 m ρ c main_v1 (by host_keep)).trans (v1_W5 m ρ c))))
theorem v3_W8 : W8 m ρ c (Proc.devRef .tc main_v3) = val_main_v3 (F := Ideal) X1 := ((Keep.k8 m ρ c main_v3 (by decide)).trans ((Keep.k7 m ρ c main_v3 (by decide)).trans ((Keep.k6 m ρ c main_v3 (by host_keep)).trans (v3_W5 m ρ c))))
theorem v28_W8 : W8 m ρ c (Proc.devRef .tc main_v28) = val_main_v26 (F := Ideal) X1 := ((Keep.k8 m ρ c main_v28 (by decide)).trans ((Keep.k7 m ρ c main_v28 (by decide)).trans ((Keep.k6 m ρ c main_v28 (by host_keep)).trans (v28_W5 m ρ c))))
theorem v13_W8 : W8 m ρ c (Proc.devRef .tc main_v13) = val_main_v42 (F := Ideal) X1 := ((Keep.k8 m ρ c main_v13 (by decide)).trans ((v13_in7 m ρ c).trans ((Keep.k6 m ρ c main_v13 (by host_keep)).trans (v13_W5 m ρ c))))

end Cert.KernelIdeal.Chain

end
-- ==== Proof.Stage4.lean ====
import proofs.«147156_j31190052504456_1_alg».proof.Proof.Gen.KernelIdeal.Frame
import proofs.«147156_j31190052504456_1_alg».proof.Proof.Gen.ReferenceIdeal.Read
import proofs.«147156_j31190052504456_1_alg».proof.Proof.Stage3
import Idealize.ShloMosaic.Lib.Pipeline.Value
import Idealize.ShloMosaic.Lib.ValueIdx
import Idealize.ShloMosaic.Lib.StableHlo.Run

set_option maxRecDepth 16384
set_option maxHeartbeats 1600000

noncomputable section

namespace Cert.KernelIdeal.Chain

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

open Cert.ReferenceIdeal.Read (val_main_v1 val_main_v3 val_main_v10 val_main_v11 val_main_v26 val_main_v39 val_main_v42 val_main_v48 val_main_v49 val_main_v64 val_main_v77 val_main_v80 val_main_v86 val_main_v87 val_main_v102 val_main_v115 val_main_v118 val_main_v124 val_main_v136 val_main_v151)
set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)

/-! The third layer, buffer by buffer: each ends at the value the reference program computes. -/

/-- The host stretch of layer 3 leaves the layer's sum over incoming edges. -/
theorem v74_W9 : W9 m ρ c (Proc.devRef .tc main_v74) = val_main_v115 (F := Ideal) X0 X1 X3 X4 X5 X6 X7 := by
  show StableHlo.after hostOps5 _ (Proc.devRef .tc main_v74) = _
  after_results_simp
  rw [v61_W8 m ρ c, v1_W8 m ρ c, v3_W8 m ρ c, v28_W8 m ρ c]
  rfl

theorem arg8_W8 : W8 m ρ c (Proc.devRef .tc main_arg8) = X8 := ((Keep.k8 m ρ c main_arg8 (by decide)).trans ((Keep.k7 m ρ c main_arg8 (by decide)).trans ((Keep.k6 m ρ c main_arg8 (by host_keep)).trans ((Keep.k5 m ρ c main_arg8 (by decide)).trans ((Keep.k4 m ρ c main_arg8 (by decide)).trans ((Keep.k3 m ρ c main_arg8 (by host_keep)).trans ((Keep.k2 m ρ c main_arg8 (by decide)).trans (Keep.k1 m ρ c main_arg8 (by host_keep)))))))))

/-- … and the layer's bias as a row. -/
theorem v75_W9 : W9 m ρ c (Proc.devRef .tc main_v75) = (shapeCast S1x64 X8 shapeCasts_S64_S1x64 : FVec Ideal S1x64 .f32) := by
  show StableHlo.after hostOps5 _ (Proc.devRef .tc main_v75) = _
  after_results_simp
  rw [arg8_W8 m ρ c]
  rfl

theorem v61_W9 : W9 m ρ c (Proc.devRef .tc main_v61) = val_main_v87 (F := Ideal) X0 X1 X3 X4 X5 X6 X7 := ((Keep.k9 m ρ c main_v61 (by host_keep)).trans (v61_W8 m ρ c))
theorem v13_W9 : W9 m ρ c (Proc.devRef .tc main_v13) = val_main_v118 (F := Ideal) X1 := ((Keep.k9 m ρ c main_v13 (by host_keep)).trans ((v13_W8 m ρ c).trans (d2_eq3 m c).symm))

/-- The pointwise region of layer 3 leaves the layer's output. -/
theorem v76_W10 : W10 m ρ c (Proc.devRef .tc main_v76) = val_main_v124 (F := Ideal) X0 X1 X3 X4 X5 X6 X7 X8 := by
  refine (W10_arr m ρ c 4).trans ?_
  funext i
  obtain ⟨p, q, rfl⟩ : ∃ (p : Fin 150000) (q : Fin 64), i = ix2 p q := ⟨i 0, i 1, eq_ix2 i⟩
  refine (RegVal.comb5 (V9 m ρ) c _ _ _ _ (v74_W9 m ρ c) (v61_W9 m ρ c) (v13_W9 m ρ c) (v75_W9 m ρ c) p q).trans ?_
  rw [Cert.ReferenceIdeal.RefRead.relu3_apply X0 X1 X3 X4 X5 X6 X7 X8 p q, bias64]

end Cert.KernelIdeal.Chain

end
-- ==== Proof.RegMlp.lean ====
import proofs.«147156_j31190052504456_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-! ## The two products at an index -/

theorem mlp_mm1_lhs0 (i : S4096x32.Idx) (q : dot_S4096x64_S64x32_S4096x32_1_0_0_1_n_n.contr.Idx) : (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem mlp_mm1_lhs1 (i : S4096x32.Idx) (q : dot_S4096x64_S64x32_S4096x32_1_0_0_1_n_n.contr.Idx) : (dot_S4096x64_S64x32_S4096x32_1_0_0_1_n_n.lhsIdx i q 1).val = (q ⟨0, by decide⟩).val :=
  dot_S4096x64_S64x32_S4096x32_1_0_0_1_n_n.lhsIdx_val_of_single rfl i q
theorem mlp_mm1_rhs0 (i : S4096x32.Idx) (q : dot_S4096x64_S64x32_S4096x32_1_0_0_1_n_n.contr.Idx) : (dot_S4096x64_S64x32_S4096x32_1_0_0_1_n_n.rhsIdx i q 0).val = (q ⟨0, by decide⟩).val :=
  dot_S4096x64_S64x32_S4096x32_1_0_0_1_n_n.rhsIdx_val_of_single rfl i q
theorem mlp_mm1_rhs1 (i : S4096x32.Idx) (q : dot_S4096x64_S64x32_S4096x32_1_0_0_1_n_n.contr.Idx) : (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- The first product at an index: the contraction over the one shared axis, written over its coordinate. -/
theorem mlp_mm1_apply (a : FVec Ideal S4096x64 .bf16) (b : FVec Ideal S64x32 .bf16) (p : Fin 4096) (j : Fin 32) :
    matmul dot_S4096x64_S64x32_S4096x32_1_0_0_1_n_n none a b (constant S4096x32 .f32 0x00000000#32) (ix2 p j)
      = ∑ k : Fin 64, a (ix2 p k) * b (ix2 k j) := by
  show FloatOps.matmul dot_S4096x64_S64x32_S4096x32_1_0_0_1_n_n none a b (constant S4096x32 .f32 0x00000000#32) (ix2 p j) = _
  rw [Ideal.matmul_constant_zero_apply, ← Equiv.sum_comp (ValueIdx.contrEquiv1 dot_S4096x64_S64x32_S4096x32_1_0_0_1_n_n 64 rfl rfl).symm]
  refine Finset.sum_congr rfl fun k _ => ?_
  have hk := ValueIdx.contrEquiv1_symm_val dot_S4096x64_S64x32_S4096x32_1_0_0_1_n_n 64 rfl rfl k
  have el : dot_S4096x64_S64x32_S4096x32_1_0_0_1_n_n.lhsIdx (ix2 p j) ((ValueIdx.contrEquiv1 dot_S4096x64_S64x32_S4096x32_1_0_0_1_n_n 64 rfl rfl).symm k) = ix2 p k := funext fun ax => Fin.ext (by
    match ax with
    | ⟨0, _⟩ => exact mlp_mm1_lhs0 _ _
    | ⟨1, _⟩ => exact (mlp_mm1_lhs1 _ _).trans hk)
  have er : dot_S4096x64_S64x32_S4096x32_1_0_0_1_n_n.rhsIdx (ix2 p j) ((ValueIdx.contrEquiv1 dot_S4096x64_S64x32_S4096x32_1_0_0_1_n_n 64 rfl rfl).symm k) = ix2 k j := funext fun ax => Fin.ext (by
    match ax with
    | ⟨0, _⟩ => exact (mlp_mm1_rhs0 _ _).trans hk
    | ⟨1, _⟩ => exact mlp_mm1_rhs1 _ _)
  rw [el, er]

theorem mlp_mm2_lhs0 (i : S4096x1.Idx) (q : dot_S4096x32_S32x1_S4096x1_1_0_0_1_n_n.contr.Idx) : (dot_S4096x32_S32x1_S4096x1_1_0_0_1_n_n.lhsIdx i q 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
theorem mlp_mm2_lhs1 (i : S4096x1.Idx) (q : dot_S4096x32_S32x1_S4096x1_1_0_0_1_n_n.contr.Idx) : (dot_S4096x32_S32x1_S4096x1_1_0_0_1_n_n.lhsIdx i q 1).val = (q ⟨0, by decide⟩).val :=
  dot_S4096x32_S32x1_S4096x1_1_0_0_1_n_n.lhsIdx_val_of_single rfl i q
theorem mlp_mm2_rhs0 (i : S4096x1.Idx) (q : dot_S4096x32_S32x1_S4096x1_1_0_0_1_n_n.contr.Idx) : (dot_S4096x32_S32x1_S4096x1_1_0_0_1_n_n.rhsIdx i q 0).val = (q ⟨0, by decide⟩).val :=
  dot_S4096x32_S32x1_S4096x1_1_0_0_1_n_n.rhsIdx_val_of_single rfl i q
theorem mlp_mm2_rhs1 (i : S4096x1.Idx) (q : dot_S4096x32_S32x1_S4096x1_1_0_0_1_n_n.contr.Idx) : (dot_S4096x32_S32x1_S4096x1_1_0_0_1_n_n.rhsIdx i q 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The second product at an index, likewise. -/
theorem mlp_mm2_apply (a : FVec Ideal S4096x32 .bf16) (b : FVec Ideal S32x1 .bf16) (p : Fin 4096) (j : Fin 1) :
    matmul dot_S4096x32_S32x1_S4096x1_1_0_0_1_n_n none a b (constant S4096x1 .f32 0x00000000#32) (ix2 p j)
      = ∑ k : Fin 32, a (ix2 p k) * b (ix2 k j) := by
  show FloatOps.matmul dot_S4096x32_S32x1_S4096x1_1_0_0_1_n_n none a b (constant S4096x1 .f32 0x00000000#32) (ix2 p j) = _
  rw [Ideal.matmul_constant_zero_apply, ← Equiv.sum_comp (ValueIdx.contrEquiv1 dot_S4096x32_S32x1_S4096x1_1_0_0_1_n_n 32 rfl rfl).symm]
  refine Finset.sum_congr rfl fun k _ => ?_
  have hk := ValueIdx.contrEquiv1_symm_val dot_S4096x32_S32x1_S4096x1_1_0_0_1_n_n 32 rfl rfl k
  have el : dot_S4096x32_S32x1_S4096x1_1_0_0_1_n_n.lhsIdx (ix2 p j) ((ValueIdx.contrEquiv1 dot_S4096x32_S32x1_S4096x1_1_0_0_1_n_n 32 rfl rfl).symm k) = ix2 p k := funext fun ax => Fin.ext (by
    match ax with
    | ⟨0, _⟩ => exact mlp_mm2_lhs0 _ _
    | ⟨1, _⟩ => exact (mlp_mm2_lhs1 _ _).trans hk)
  have er : dot_S4096x32_S32x1_S4096x1_1_0_0_1_n_n.rhsIdx (ix2 p j) ((ValueIdx.contrEquiv1 dot_S4096x32_S32x1_S4096x1_1_0_0_1_n_n 32 rfl rfl).symm k) = ix2 k j := funext fun ax => Fin.ext (by
    match ax with
    | ⟨0, _⟩ => exact (mlp_mm2_rhs0 _ _).trans hk
    | ⟨1, _⟩ => exact mlp_mm2_rhs1 _ _)
  rw [el, er]

/-! ## The payload at an index -/

/-- The body's stored value at row p: the two products read as sums over their shared axis, each bias row read at
    row 0, the format changes the identity, and the remaining operations pointwise. -/
theorem mlp_pay_apply (x0 : Vec Ideal S4096x64 .f32) (x1 : Vec Ideal S64x32 .f32) (x2 : Vec Ideal S1x32 .f32)
    (x3 : Vec Ideal S32x1 .f32) (x4 : Vec Ideal S1x1 .f32) (p : Fin 4096) :
    k6_pay1 (F := Ideal) x0 x1 x2 x3 x4 (ix2 p (0 : Fin 1))
      = Ideal.div (Ideal.ofBits .f32 0x3F800000#32)
          (Ideal.ofBits .f32 0x3F800000#32 + Ideal.exp (Ideal.ofBits .f32 0x00000000#32 -
            ((∑ j : Fin 32, max ((∑ k : Fin 64, x0 (ix2 p k) * x1 (ix2 k j)) + x2 (ix2 (0 : Fin 1) j)) (Ideal.ofBits .f32 0x00000000#32)
                * x3 (ix2 j (0 : Fin 1))) + x4 (ix2 (0 : Fin 1) (0 : Fin 1))))) := by
  unfold k6_pay1
  show Ideal.div (Ideal.ofBits .f32 0x3F800000#32) (Ideal.ofBits .f32 0x3F800000#32 + Ideal.exp (Ideal.ofBits .f32 0x00000000#32
    - (matmul (F := Ideal) _ none _ _ _ (ix2 p (0 : Fin 1)) + broadcastTo _ _ _ (ix2 p (0 : Fin 1))))) = _
  rw [mlp_mm2_apply, broadcastTo_1b_ab_apply, shapeCast_self, shapeCast_self, shapeCast_self]
  refine congrArg (Ideal.div (Ideal.ofBits .f32 0x3F800000#32)) ?_
  refine congrArg (HAdd.hAdd (Ideal.ofBits .f32 0x3F800000#32)) ?_
  refine congrArg Ideal.exp ?_
  refine congrArg (HSub.hSub (Ideal.ofBits .f32 0x00000000#32)) ?_
  refine congrArg (fun s : EReal => s + x4 (ix2 (0 : Fin 1) (0 : Fin 1))) ?_
  refine Finset.sum_congr rfl fun j _ => ?_
  show max (matmul (F := Ideal) _ none _ _ _ (ix2 p j) + broadcastTo _ _ _ (ix2 p j)) (Ideal.ofBits .f32 0x00000000#32) * x3 (ix2 j (0 : Fin 1)) = _
  rw [mlp_mm1_apply, broadcastTo_1b_ab_apply]
  rfl

/-! ## Every block is its whole array -/

theorem mlp_zero2 : (![0, 0] : Fin 2 → Nat) = fun _ => 0 := funext fun a => by fin_cases a <;> rfl

/-- The index maps, decided over the grid: every window's block index is 0 on both axes. -/
theorem mlp_idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's block at any point is its whole array. -/
theorem mlp_blk0 (c : Dev nD) (t : Fin cfg6.N) : (iblk6 (F := Ideal) V c 0 t : Vec Ideal S4096x64 .f32) = V c main_v88 := by
  obtain ⟨e00, e01, e10, e11, e20, e21, e30, e31, e40, e41, e50, e51⟩ := mlp_idx_facts t
  funext y
  show V c main_v88 (((cfg6.win 0).blk t).view.emb y) = V c main_v88 y
  refine congrArg (V c main_v88) (funext fun a => Fin.ext ?_)
  match a with
  | ⟨0, _⟩ => show win6_0.index t (0 : Fin 2) * 4096 + 1 * (y 0).val = (y 0).val; omega
  | ⟨1, _⟩ => show win6_0.index t (1 : Fin 2) * 64 + 1 * (y 1).val = (y 1).val; omega

/-- Window 1's block at any point is its whole array. -/
theorem mlp_blk1 (c : Dev nD) (t : Fin cfg6.N) : (iblk6 (F := Ideal) V c 1 t : Vec Ideal S64x32 .f32) = V c main_arg9 := by
  obtain ⟨e00, e01, e10, e11, e20, e21, e30, e31, e40, e41, e50, e51⟩ := mlp_idx_facts t
  funext y
  show V c main_arg9 (((cfg6.win 1).blk t).view.emb y) = V c main_arg9 y
  refine congrArg (V c main_arg9) (funext fun a => Fin.ext ?_)
  match a with
  | ⟨0, _⟩ => show win6_1.index t (0 : Fin 2) * 64 + 1 * (y 0).val = (y 0).val; omega
  | ⟨1, _⟩ => show win6_1.index t (1 : Fin 2) * 32 + 1 * (y 1).val = (y 1).val; omega

/-- Window 2's block at any point is its whole array. -/
theorem mlp_blk2 (c : Dev nD) (t : Fin cfg6.N) : (iblk6 (F := Ideal) V c 2 t : Vec Ideal S1x32 .f32) = V c main_v89 := by
  obtain ⟨e00, e01, e10, e11, e20, e21, e30, e31, e40, e41, e50, e51⟩ := mlp_idx_facts t
  funext y
  show V c main_v89 (((cfg6.win 2).blk t).view.emb y) = V c main_v89 y
  refine congrArg (V c main_v89) (funext fun a => Fin.ext ?_)
  match a with
  | ⟨0, _⟩ => show win6_2.index t (0 : Fin 2) * 1 + 1 * (y 0).val = (y 0).val; omega
  | ⟨1, _⟩ => show win6_2.index t (1 : Fin 2) * 32 + 1 * (y 1).val = (y 1).val; omega

/-- Window 3's block at any point is its whole array. -/
theorem mlp_blk3 (c : Dev nD) (t : Fin cfg6.N) : (iblk6 (F := Ideal) V c 3 t : Vec Ideal S32x1 .f32) = V c main_arg11 := by
  obtain ⟨e00, e01, e10, e11, e20, e21, e30, e31, e40, e41, e50, e51⟩ := mlp_idx_facts t
  funext y
  show V c main_arg11 (((cfg6.win 3).blk t).view.emb y) = V c main_arg11 y
  refine congrArg (V c main_arg11) (funext fun a => Fin.ext ?_)
  match a with
  | ⟨0, _⟩ => show win6_3.index t (0 : Fin 2) * 32 + 1 * (y 0).val = (y 0).val; omega
  | ⟨1, _⟩ => show win6_3.index t (1 : Fin 2) * 1 + 1 * (y 1).val = (y 1).val; omega

/-- Window 4's block at any point is its whole array. -/
theorem mlp_blk4 (c : Dev nD) (t : Fin cfg6.N) : (iblk6 (F := Ideal) V c 4 t : Vec Ideal S1x1 .f32) = V c main_v90 := by
  obtain ⟨e00, e01, e10, e11, e20, e21, e30, e31, e40, e41, e50, e51⟩ := mlp_idx_facts t
  funext y
  show V c main_v90 (((cfg6.win 4).blk t).view.emb y) = V c main_v90 y
  refine congrArg (V c main_v90) (funext fun a => Fin.ext ?_)
  match a with
  | ⟨0, _⟩ => show win6_4.index t (0 : Fin 2) * 1 + 1 * (y 0).val = (y 0).val; omega
  | ⟨1, _⟩ => show win6_4.index t (1 : Fin 2) * 1 + 1 * (y 1).val = (y 1).val; omega

/-! ## What the one point writes back, and the array after the region -/

/-- What a point writes back is its block of the payload of the whole input arrays. -/
theorem mlp_flushed (c : Dev nD) (t : Fin cfg6.N) :
    (dat6 (F := Ideal) V c).flushed 5 t = ((cfg6.win 5).blk t).view.read (Elt Ideal)
      (k6_pay1 (F := Ideal) (V c main_v88) (V c main_arg9) (V c main_v89) (V c main_arg11) (V c main_v90)) := by
  show (cfg6.win 5).cut (grid6.coords t) ((dat6 (F := Ideal) V c).after 5 t) = _
  rw [after6_5]
  unfold out6_5
  rw [View.canon_unit_zero mlp_zero2]
  simp only [View.ld_unit_zero (S := S4096x64) mlp_zero2, View.ld_unit_zero (S := S64x32) mlp_zero2,
    View.ld_unit_zero (S := S1x32) mlp_zero2, View.ld_unit_zero (S := S32x1) mlp_zero2, View.ld_unit_zero (S := S1x1) mlp_zero2]
  rw [mlp_blk0 V c t, mlp_blk1 V c t, mlp_blk2 V c t, mlp_blk3 V c t, mlp_blk4 V c t]
  obtain ⟨e00, e01, e10, e11, e20, e21, e30, e31, e40, e41, e50, e51⟩ := mlp_idx_facts t
  funext y
  show k6_pay1 (F := Ideal) (V c main_v88) (V c main_arg9) (V c main_v89) (V c main_arg11) (V c main_v90) y
    = k6_pay1 (F := Ideal) (V c main_v88) (V c main_arg9) (V c main_v89) (V c main_arg11) (V c main_v90) (((cfg6.win 5).blk t).view.emb y)
  refine congrArg _ (funext fun a => Fin.ext ?_)
  match a with
  | ⟨0, _⟩ => show (y 0).val = win6_5.index t (0 : Fin 2) * 4096 + 1 * (y 0).val; omega
  | ⟨1, _⟩ => show (y 1).val = win6_5.index t (1 : Fin 2) * 1 + 1 * (y 1).val; omega

/-- An index of the output array is in a point's block iff each coordinate is in the block's range on its axis. -/
theorem mlp_mem_blk (t : Fin cfg6.N) (i : S4096x1.Idx) :
    i ∈ ((cfg6.win 5).blk t).view.set ↔ ∀ a : Fin 2, win6_5.index t a * S4096x1.size a ≤ (i a).val ∧ (i a).val < win6_5.index t a * S4096x1.size a + S4096x1.size a := by
  show i ∈ ((View.whole main_v91).slice (win6_5.rect t)).set ↔ _
  rw [View.set_slice_whole, Rect.mem_set_unit]
  exact Iff.rfl

/-- The one point's block covers every index of the output array. -/
theorem mlp_cover (i : S4096x1.Idx) : ∃ t : Fin cfg6.N, (cfg6.win 5).flush t = true ∧ i ∈ ((cfg6.win 5).blk t).view.set := by
  refine ⟨t6_0, flush6_5 _, ?_⟩
  rw [mlp_mem_blk]
  obtain ⟨e00, e01, e10, e11, e20, e21, e30, e31, e40, e41, e50, e51⟩ := mlp_idx_facts t6_0
  have hi0 : (i 0).val < 4096 := (i 0).isLt
  have hi1 : (i 1).val < 1 := (i 1).isLt
  intro a
  match a with
  | ⟨0, _⟩ => show win6_5.index t6_0 (0 : Fin 2) * 4096 ≤ (i 0).val ∧ (i 0).val < win6_5.index t6_0 (0 : Fin 2) * 4096 + 4096; omega
  | ⟨1, _⟩ => show win6_5.index t6_0 (1 : Fin 2) * 1 ≤ (i 1).val ∧ (i 1).val < win6_5.index t6_0 (1 : Fin 2) * 1 + 1; omega

/-- The output array after the region is the payload of the whole input arrays. -/
theorem mlp_final (c : Dev nD) : (dat6 (F := Ideal) V c).arrAt 5 cfg6.N
    = k6_pay1 (F := Ideal) (V c main_v88) (V c main_arg9) (V c main_v89) (V c main_arg11) (V c main_v90) :=
  (dat6 (F := Ideal) V c).arrAt_eq_of_cover 5 _ (fun t _ => mlp_flushed V c t) mlp_cover

/-- Region 6 (one grid point, every block the whole array): after the region the output array holds, at row p,
    1 / (1 + exp (0 - z2(p))) with z1(p,j) = max ((sum_k P(p,k) * lw1(k,j)) + lb1(0,j)) 0 and
    z2(p) = (sum_j z1(p,j) * lw2(j,0)) + lb2(0,0). -/
theorem mlp6 (c : Dev nD) (P : FVec Ideal S4096x64 .f32) (lw1 : FVec Ideal S64x32 .f32) (lb1 : FVec Ideal S1x32 .f32)
    (lw2 : FVec Ideal S32x1 .f32) (lb2 : FVec Ideal S1x1 .f32)
    (hP : V c main_v88 = P) (hlw1 : V c main_arg9 = lw1) (hlb1 : V c main_v89 = lb1)
    (hlw2 : V c main_arg11 = lw2) (hlb2 : V c main_v90 = lb2) (p : Fin 4096) :
    ((dat6 (F := Ideal) V c).arrAt 5 cfg6.N : FVec Ideal S4096x1 .f32) (ix2 p (0 : Fin 1))
      = Ideal.div (Ideal.ofBits .f32 0x3F800000#32)
          (Ideal.ofBits .f32 0x3F800000#32 + Ideal.exp (Ideal.ofBits .f32 0x00000000#32 -
            ((∑ j : Fin 32, max ((∑ k : Fin 64, P (ix2 p k) * lw1 (ix2 k j)) + lb1 (ix2 (0 : Fin 1) j)) (Ideal.ofBits .f32 0x00000000#32)
                * lw2 (ix2 j (0 : Fin 1))) + lb2 (ix2 (0 : Fin 1) (0 : Fin 1))))) := by
  rw [mlp_final V c, hP, hlw1, hlb1, hlw2, hlb2]
  exact mlp_pay_apply P lw1 lb1 lw2 lb2 p

end Cert.KernelIdeal.RegVal

end
-- ==== Proof.Stage5.lean ====
import proofs.«147156_j31190052504456_1_alg».proof.Proof.Gen.KernelIdeal.Frame
import proofs.«147156_j31190052504456_1_alg».proof.Proof.Gen.ReferenceIdeal.Read
import proofs.«147156_j31190052504456_1_alg».proof.Proof.Stage4
import proofs.«147156_j31190052504456_1_alg».proof.Proof.RegMlp
import Idealize.ShloMosaic.PureOps.Ideal.Laws
import Idealize.ShloMosaic.Lib.Pipeline.Value
import Idealize.ShloMosaic.Lib.ValueIdx
import Idealize.ShloMosaic.Lib.StableHlo.Run

set_option maxRecDepth 16384
set_option maxHeartbeats 1600000

noncomputable section

namespace Cert.KernelIdeal.Chain

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

open Cert.ReferenceIdeal.Read (val_main_v1 val_main_v3 val_main_v10 val_main_v11 val_main_v26 val_main_v39 val_main_v42 val_main_v48 val_main_v49 val_main_v64 val_main_v77 val_main_v80 val_main_v86 val_main_v87 val_main_v102 val_main_v115 val_main_v118 val_main_v124 val_main_v136 val_main_v151)
set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)

/-! The last host stretch pools the third layer's output per graph (the sum over each graph's nodes divided by the
clamped node count) and region 6 applies the two-layer head and the logistic function; the result array ends at the
value the reference program computes. The kernel writes the logistic's argument as 0 - z where the reference
negates z: on the extended reals the two are one number. -/

/-- Entry (0, j) of a length-32 vector cast to a row is the vector's entry j. -/
theorem bias32 (x : FVec Ideal S32 .f32) (j : Fin 32) :
    (shapeCast S1x32 x shapeCasts_S32_S1x32 : FVec Ideal S1x32 .f32) (ix2 (0 : Fin 1) j) = x (ix1 j) :=
  (Cert.LibRow.shapeCast_row_apply (b := 32) x shapeCasts_S32_S1x32 (ix2 (0 : Fin 1) j)).trans
    (congrArg x (funext fun a => by match a with | ⟨0, _⟩ => rfl))

/-- Entry (0, 0) of a length-1 vector cast to a row is the vector's entry 0. -/
theorem bias1 (x : FVec Ideal S1 .f32) (j : Fin 1) :
    (shapeCast S1x1 x shapeCasts_S1_S1x1 : FVec Ideal S1x1 .f32) (ix2 (0 : Fin 1) j) = x (ix1 j) :=
  (Cert.LibRow.shapeCast_row_apply (b := 1) x shapeCasts_S1_S1x1 (ix2 (0 : Fin 1) j)).trans
    (congrArg x (funext fun a => by match a with | ⟨0, _⟩ => rfl))

theorem arg2_W10 : W10 m ρ c (Proc.devRef .tc main_arg2) = X2 := ((Keep.k10 m ρ c main_arg2 (by decide)).trans ((Keep.k9 m ρ c main_arg2 (by host_keep)).trans ((Keep.k8 m ρ c main_arg2 (by decide)).trans ((Keep.k7 m ρ c main_arg2 (by decide)).trans ((Keep.k6 m ρ c main_arg2 (by host_keep)).trans ((Keep.k5 m ρ c main_arg2 (by decide)).trans ((Keep.k4 m ρ c main_arg2 (by decide)).trans ((Keep.k3 m ρ c main_arg2 (by host_keep)).trans ((Keep.k2 m ρ c main_arg2 (by decide)).trans (Keep.k1 m ρ c main_arg2 (by host_keep)))))))))))
theorem arg10_W10 : W10 m ρ c (Proc.devRef .tc main_arg10) = X10 := ((Keep.k10 m ρ c main_arg10 (by decide)).trans ((Keep.k9 m ρ c main_arg10 (by host_keep)).trans ((Keep.k8 m ρ c main_arg10 (by decide)).trans ((Keep.k7 m ρ c main_arg10 (by decide)).trans ((Keep.k6 m ρ c main_arg10 (by host_keep)).trans ((Keep.k5 m ρ c main_arg10 (by decide)).trans ((Keep.k4 m ρ c main_arg10 (by decide)).trans ((Keep.k3 m ρ c main_arg10 (by host_keep)).trans ((Keep.k2 m ρ c main_arg10 (by decide)).trans (Keep.k1 m ρ c main_arg10 (by host_keep)))))))))))
theorem arg12_W10 : W10 m ρ c (Proc.devRef .tc main_arg12) = X12 := ((Keep.k10 m ρ c main_arg12 (by decide)).trans ((Keep.k9 m ρ c main_arg12 (by host_keep)).trans ((Keep.k8 m ρ c main_arg12 (by decide)).trans ((Keep.k7 m ρ c main_arg12 (by decide)).trans ((Keep.k6 m ρ c main_arg12 (by host_keep)).trans ((Keep.k5 m ρ c main_arg12 (by decide)).trans ((Keep.k4 m ρ c main_arg12 (by decide)).trans ((Keep.k3 m ρ c main_arg12 (by host_keep)).trans ((Keep.k2 m ρ c main_arg12 (by decide)).trans (Keep.k1 m ρ c main_arg12 (by host_keep)))))))))))
theorem arg9_W11 : W11 m ρ c (Proc.devRef .tc main_arg9) = X9 := ((Keep.k11 m ρ c main_arg9 (by host_keep)).trans ((Keep.k10 m ρ c main_arg9 (by decide)).trans ((Keep.k9 m ρ c main_arg9 (by host_keep)).trans ((Keep.k8 m ρ c main_arg9 (by decide)).trans ((Keep.k7 m ρ c main_arg9 (by decide)).trans ((Keep.k6 m ρ c main_arg9 (by host_keep)).trans ((Keep.k5 m ρ c main_arg9 (by decide)).trans ((Keep.k4 m ρ c main_arg9 (by decide)).trans ((Keep.k3 m ρ c main_arg9 (by host_keep)).trans ((Keep.k2 m ρ c main_arg9 (by decide)).trans (Keep.k1 m ρ c main_arg9 (by host_keep))))))))))))
theorem arg11_W11 : W11 m ρ c (Proc.devRef .tc main_arg11) = X11 := ((Keep.k11 m ρ c main_arg11 (by host_keep)).trans ((Keep.k10 m ρ c main_arg11 (by decide)).trans ((Keep.k9 m ρ c main_arg11 (by host_keep)).trans ((Keep.k8 m ρ c main_arg11 (by decide)).trans ((Keep.k7 m ρ c main_arg11 (by decide)).trans ((Keep.k6 m ρ c main_arg11 (by host_keep)).trans ((Keep.k5 m ρ c main_arg11 (by decide)).trans ((Keep.k4 m ρ c main_arg11 (by decide)).trans ((Keep.k3 m ρ c main_arg11 (by host_keep)).trans ((Keep.k2 m ρ c main_arg11 (by decide)).trans (Keep.k1 m ρ c main_arg11 (by host_keep))))))))))))

/-- The last host stretch leaves the pooled features. -/
theorem v88_W11 : W11 m ρ c (Proc.devRef .tc main_v88) = val_main_v136 (F := Ideal) X0 X1 X2 X3 X4 X5 X6 X7 X8 := by
  show StableHlo.after hostOps6 _ (Proc.devRef .tc main_v88) = _
  after_results_simp
  rw [v76_W10 m ρ c, arg2_W10 m ρ c]
  rfl

/-- … and the head's two biases as rows. -/
theorem v89_W11 : W11 m ρ c (Proc.devRef .tc main_v89) = (shapeCast S1x32 X10 shapeCasts_S32_S1x32 : FVec Ideal S1x32 .f32) := by
  show StableHlo.after hostOps6 _ (Proc.devRef .tc main_v89) = _
  after_results_simp
  rw [arg10_W10 m ρ c]
  rfl
theorem v90_W11 : W11 m ρ c (Proc.devRef .tc main_v90) = (shapeCast S1x1 X12 shapeCasts_S1_S1x1 : FVec Ideal S1x1 .f32) := by
  show StableHlo.after hostOps6 _ (Proc.devRef .tc main_v90) = _
  after_results_simp
  rw [arg12_W10 m ρ c]
  rfl

/-- Region 6 leaves the reference's result: the kernel program's result array, after its run, is the reference's
    result term of the same thirteen arguments. -/
theorem v91_W12 : W12 m ρ c (Proc.devRef .tc main_v91) = val_main_v151 (F := Ideal) X0 X1 X2 X3 X4 X5 X6 X7 X8 X9 X10 X11 X12 := by
  refine (W12_arr m ρ c 5).trans ?_
  funext i
  obtain ⟨p, z, rfl⟩ : ∃ (p : Fin 4096) (z : Fin 1), i = ix2 p z := ⟨i 0, i 1, eq_ix2 i⟩
  obtain rfl : z = 0 := Subsingleton.elim _ _
  refine (RegVal.mlp6 (V11 m ρ) c _ X9 _ X11 _ (v88_W11 m ρ c) (arg9_W11 m ρ c) (v89_W11 m ρ c) (arg11_W11 m ρ c) (v90_W11 m ρ c) p).trans ?_
  rw [Cert.ReferenceIdeal.RefRead.head_apply X0 X1 X2 X3 X4 X5 X6 X7 X8 X9 X10 X11 X12 p]
  simp only [bias32, bias1, zero_sub, Ideal.ofBits_zero_f32]

end Cert.KernelIdeal.Chain

end
-- ==== Proof.lean ====
/-
  The certificate of a three-layer graph convolution with mean pooling and a two-layer logistic head, computed by seven
  tiled kernels among host operations, against the plain reference.

  Both programs compute, from the same arguments, deg = (number of edges into a node) + 1, dinv = deg^(-1/2),
  coef(e) = dinv(src e) · dinv(dst e), and three times h ↦ max ((Σ_{e into n} (h·W)(src e) · coef(e)) + (h·W)(n) · dinv(n)²
  + b, 0); then the per-graph mean of the node features and 1 / (1 + exp (−((max (pooled·lw1 + lb1, 0))·lw2 + lb2))).
  The kernel program computes the products h·W, the pointwise combination and the head inside kernels that tile the
  150000 nodes in blocks of 10000 rows; the reference computes them as whole-array host operations. On the extended
  reals a product into a zero accumulator is the plain sum over the contracted axis, a change of float format is the
  identity, a block of rows of a row-wise function is the function on those rows, and 0 − z is −z; so the kernel
  program's buffers hold, segment by segment, exactly the values the reference computes (no finiteness of the inputs
  is used: only sums are regrouped, and nothing is distributed or cancelled).

  The three frames: the kernel programs' are the generated frame proofs; the reference's is its generated run with the
  result dropped. The idealization rewrote nothing, so `preserves` is trivial.
-/
import proofs.«147156_j31190052504456_1_alg».proof.Defs
import proofs.«147156_j31190052504456_1_alg».proof.Proof.Gen.Kernel
import proofs.«147156_j31190052504456_1_alg».proof.Proof.Gen.Kernel.Skeleton
import proofs.«147156_j31190052504456_1_alg».proof.Proof.Gen.Kernel.Launch
import proofs.«147156_j31190052504456_1_alg».proof.Proof.Gen.Kernel.Points
import proofs.«147156_j31190052504456_1_alg».proof.Proof.Gen.Kernel.Frame
import proofs.«147156_j31190052504456_1_alg».proof.Proof.Gen.KernelIdeal
import proofs.«147156_j31190052504456_1_alg».proof.Proof.Gen.KernelIdeal.Skeleton
import proofs.«147156_j31190052504456_1_alg».proof.Proof.Gen.KernelIdeal.Launch
import proofs.«147156_j31190052504456_1_alg».proof.Proof.Gen.KernelIdeal.Points
import proofs.«147156_j31190052504456_1_alg».proof.Proof.Gen.KernelIdeal.Frame
import proofs.«147156_j31190052504456_1_alg».proof.Proof.Gen.ReferenceIdeal
import proofs.«147156_j31190052504456_1_alg».proof.Proof.Gen.ReferenceIdeal.Run
import proofs.«147156_j31190052504456_1_alg».proof.Proof.Gen.ReferenceIdeal.Read
import proofs.«147156_j31190052504456_1_alg».proof.Proof.Gen.Pre_finite_inputs
import proofs.«147156_j31190052504456_1_alg».proof.Proof.KRun
import proofs.«147156_j31190052504456_1_alg».proof.Proof.Stage5
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run, and the kernel program's result array ends at
    the reference's result term of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v91), Cert.KernelIdeal.KVal.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v151_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.KernelIdeal.Chain.v91_W12 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
